-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x40, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x40, .f32⟩
  | .hbm, ⟨77, _⟩ => ⟨S1700000x1, .f32⟩
  | .hbm, ⟨78, _⟩ => ⟨S1700000x40, .f32⟩
  | .hbm, ⟨79, _⟩ => ⟨S1700000x40, .f32⟩
  | .hbm, ⟨80, _⟩ => ⟨S_, .f32⟩
  | .hbm, ⟨81, _⟩ => ⟨S100000x40, .f32⟩
  | .hbm, ⟨82, _⟩ => ⟨S1700000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x40, .f32⟩
  | .hbm, ⟨82, _⟩ => ⟨S1700000x1, .f32⟩
  | .hbm, ⟨83, _⟩ => ⟨S1700000x40, .f32⟩
  | .hbm, ⟨84, _⟩ => ⟨S1700000x40, .f32⟩
  | .hbm, ⟨85, _⟩ => ⟨S_, .f32⟩
  | .hbm, ⟨86, _⟩ => ⟨S100000x40, .f32⟩
  | .hbm, ⟨87, _⟩ => ⟨S1700000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's whole run, with its result kept.

  The program is three grid launches among stretches of host operations.  Along the run the contents of the
  TensorCore's buffers at each boundary are a fold from the launch memory: a host stretch applies its operations,
  a launch replaces its output array by what its grid points wrote back and leaves every other buffer alone.  The
  last boundary's contents are `Gen.W8`.  The launch theorem for a list of segments says every weakly fair execution
  terminates without a fault in a memory that holds, at every unscoped buffer, that last boundary's contents; read
  at the result buffer and at the seven argument buffers this is the statement below.  The arguments read back to
  their launch contents because nothing writes them.
-/
import proofs.«150376_j2448131359492_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven argument arrays as launched. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Spec.lean ====
/-
  The three dense stages of a two-layer graph convolution, as functions of whole arrays over the extended reals.

  Between these stages the network gathers rows along edges, scales them by the edge norm and sums them into the
  destination rows; that part is the same host computation in both programs and is never opened here.  What differs
  between the two programs is how the dense stages are computed, and each of them is one function of its input arrays,
  index by index:

  * `dense1 X W` at (r, q) is the inner product of row r of X with column q of W (128 terms);
  * `dense2 A b W` at (r, q) is the inner product of the rectified row r of A + b (b a one-row array, added to every
    row; rectified: the larger of the entry and zero) with column q of W (64 terms);
  * `logSoftmaxRow z` is the logarithm of the softmax of one row z of 40 entries, written the stable way: with M the
    largest entry (the fold of max from -infinity), the entry minus M minus the logarithm of the sum of the
    exponentials of all entries minus M; `epilogue A b` applies it to every row of A + b.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The row coordinate of an index of a two-axis array, at its literal extent. -/
abbrev row {n0 n1 : Nat} (i : (⟨2, ![n0, n1]⟩ : Shape).Idx) : Fin n0 := ⟨(i 0).val, idx2_lt0 i⟩
/-- The column coordinate. -/
abbrev col {n0 n1 : Nat} (i : (⟨2, ![n0, n1]⟩ : Shape).Idx) : Fin n1 := ⟨(i 1).val, idx2_lt1 i⟩

/-- Layer one's linear map: entry (r, q) is the sum over k of X (r, k) · W (k, q). -/
def dense1 (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (row i) k) * W (ix2 k (col i))

/-- Layer two's linear map after the bias and the rectifier: entry (r, q) is the sum over k of
    max (A (r, k) + b (0, k)) 0 · W (k, q). -/
def dense2 (A : (⟨2, ![100000, 64]⟩ : Shape).Idx → EReal) (b : (⟨2, ![1, 64]⟩ : Shape).Idx → EReal)
    (W : (⟨2, ![64, 40]⟩ : Shape).Idx → EReal) : (⟨2, ![100000, 40]⟩ : Shape).Idx → EReal :=
  fun i => ∑ k : Fin 64, max (A (ix2 (row i) k) + b (ix2 (0 : Fin 1) k)) 0 * W (ix2 k (col i))

/-- The largest entry of a row of 40 extended reals, as the fold of max from -infinity. -/
def rowMax (z : Fin 40 → EReal) : EReal := (Finset.univ : Finset (Fin 40)).fold max ⊥ z

/-- The logarithm of the softmax of one row at entry q, shifted by the row's largest entry. -/
def logSoftmaxRow (z : Fin 40 → EReal) (q : Fin 40) : EReal :=
  (z q - rowMax z) - Ideal.log (∑ k : Fin 40, Ideal.exp (z k - rowMax z))

/-- The epilogue: the bias row added to every row, then the logarithm of the softmax along each row. -/
def epilogue (A : (⟨2, ![100000, 40]⟩ : Shape).Idx → EReal) (b : (⟨2, ![1, 40]⟩ : Shape).Idx → EReal) :
    (⟨2, ![100000, 40]⟩ : Shape).Idx → EReal :=
  fun i => logSoftmaxRow (fun k => A (ix2 (row i) k) + b (ix2 (0 : Fin 1) k)) (col i)

end Cert.Gcn

end
-- ==== Proof.Layer1.lean ====
/-
  The first launch: ten blocks of 10000 rows.  Point t loads rows 10000·t … 10000·t + 9999 of the left array (all
  128 columns) and the whole right array, and stores their matrix product into the same rows of the output (all 64
  columns).  Rounding the operands to a narrower format is the identity on extended reals and the product accumulates
  into zero, so the stored block at (p, q) is the sum over k of left (10000·t + p, k) · right (k, q): block t of the
  whole-array function `dense1`.  The ten blocks tile the output, so after the launch the output array is `dense1` of
  the two input arrays as the launch found them.
-/
import proofs.«150376_j2448131359492_1_alg».proof.Proof.Gen.KernelIdeal.Frame
import proofs.«150376_j2448131359492_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The stored block at an index -/

theorem lhs_0 (y : S10000x64.Idx) (q : dot_S10000x128_S128x64_S10000x64_1_0_0_1_n_n.contr.Idx) :
    (dot_S10000x128_S128x64_S10000x64_1_0_0_1_n_n.lhsIdx y q 0).val = (y 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (y : S10000x64.Idx) (q : dot_S10000x128_S128x64_S10000x64_1_0_0_1_n_n.contr.Idx) :
    (dot_S10000x128_S128x64_S10000x64_1_0_0_1_n_n.lhsIdx y q 1).val = (q ⟨0, by decide⟩).val :=
  dot_S10000x128_S128x64_S10000x64_1_0_0_1_n_n.lhsIdx_val_of_single rfl y q
theorem rhs_0 (y : S10000x64.Idx) (q : dot_S10000x128_S128x64_S10000x64_1_0_0_1_n_n.contr.Idx) :
    (dot_S10000x128_S128x64_S10000x64_1_0_0_1_n_n.rhsIdx y q 0).val = (q ⟨0, by decide⟩).val :=
  dot_S10000x128_S128x64_S10000x64_1_0_0_1_n_n.rhsIdx_val_of_single rfl y q
theorem rhs_1 (y : S10000x64.Idx) (q : dot_S10000x128_S128x64_S10000x64_1_0_0_1_n_n.contr.Idx) :
    (dot_S10000x128_S128x64_S10000x64_1_0_0_1_n_n.rhsIdx y q 1).val = (y 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The stored block at (p, q) is the sum over k of the left block at (p, k) times the right block at (k, q). -/
theorem pay_apply (x0 : Vec Ideal S10000x128 .f32) (x1 : Vec Ideal S128x64 .f32) (y : S10000x64.Idx) :
    k0_pay1 (F := Ideal) x0 x1 y = ∑ k : Fin 128, x0 (ix2 (row y) k) * x1 (ix2 k (col y)) := by
  unfold k0_pay1
  simp only [matmul]
  refine (Ideal.matmul_constant_zero_apply dot_S10000x128_S128x64_S10000x64_1_0_0_1_n_n none _ _ y).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx y ((contrEquiv1 dot_S10000x128_S128x64_S10000x64_1_0_0_1_n_n 128 rfl rfl).symm k) = ix2 (row y) k := funext fun a => Fin.ext (by
    match a with
    | ⟨0, _⟩ => exact lhs_0 _ _
    | ⟨1, _⟩ => exact (lhs_1 _ _).trans hk)
  have er : dot_S10000x128_S128x64_S10000x64_1_0_0_1_n_n.rhsIdx y ((contrEquiv1 dot_S10000x128_S128x64_S10000x64_1_0_0_1_n_n 128 rfl rfl).symm k) = ix2 k (col y) := funext fun a => Fin.ext (by
    match a with
    | ⟨0, _⟩ => exact (rhs_0 _ _).trans hk
    | ⟨1, _⟩ => exact rhs_1 _ _)
  rw [el, er]
  rfl

/-! ## Where the blocks sit -/

/-- The printed index maps over the grid: the left and the output blocks move down together, one block of rows per
    point; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point t writes back is block t of `dense1` of the two input arrays. -/
theorem flushed_eq (c : Dev nD) (t : Fin cfg0.N) :
    (dat0 V c).flushed 2 t = ((cfg0.win 2).blk t).view.read (Elt Ideal) (dense1 (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext y
  show k0_pay1 (F := Ideal) (iblk0 V c 0 t) (iblk0 V c 1 t) y = dense1 (V c main_arg0) (V c main_arg3) (((cfg0.win 2).blk t).view.emb y)
  refine (pay_apply (iblk0 V c 0 t) (iblk0 V c 1 t) y).trans ?_
  unfold dense1
  refine Finset.sum_congr rfl fun k _ => ?_
  have h0 : ((cfg0.win 0).blk t).view.emb (ix2 (row y) k) = ix2 (row (((cfg0.win 2).blk t).view.emb y)) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (ix2 k (col y)) = ix2 k (col (((cfg0.win 2).blk t).view.emb y)) := by
    funext a; apply Fin.ext
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega
  have a0 : iblk0 V c 0 t (ix2 (row y) k) = V c main_arg0 (ix2 (row (((cfg0.win 2).blk t).view.emb y)) k) := by
    show V c main_arg0 (((cfg0.win 0).blk t).view.emb (ix2 (row y) k)) = _
    rw [h0]
  have a1 : iblk0 V c 1 t (ix2 k (col y)) = V c main_arg3 (ix2 k (col (((cfg0.win 2).blk t).view.emb y))) := by
    show V c main_arg3 (((cfg0.win 1).blk t).view.emb (ix2 k (col y))) = _
    rw [h1]
  rw [a0, a1]

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks cover the output: row r is in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch its output array is `dense1` of its two input arrays as the launch found them. -/
theorem final (c : Dev nD) : (dat0 V c).arrAt 2 cfg0.N = dense1 (V c main_arg0) (V c main_arg3) :=
  (dat0 V c).arrAt_eq_of_cover 2 _ (fun t _ => flushed_eq V c t) cover

end Cert.KernelIdeal.Layer1

end
-- ==== Proof.Layer2.lean ====
/-
  The second launch: ten blocks of 10000 rows.  Point t loads rows 10000·t … 10000·t + 9999 of the aggregated
  features (64 columns), the one-row bias and the whole weight array; it adds the bias row to every loaded row, takes
  the larger of each entry and zero, and stores the matrix product with the weights into the same rows of the output
  (40 columns).  Rounding to a narrower format is the identity on extended reals and the product accumulates into
  zero, so the stored block at (p, q) is the sum over k of max (A (10000·t + p, k) + b (0, k)) 0 · W (k, q): block t of
  the whole-array function `dense2`.  The ten blocks tile the output.
-/
import proofs.«150376_j2448131359492_1_alg».proof.Proof.Gen.KernelIdeal.Frame
import proofs.«150376_j2448131359492_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The stored block at an index -/

theorem lhs_0 (y : S10000x40.Idx) (q : dot_S10000x64_S64x40_S10000x40_1_0_0_1_n_n.contr.Idx) :
    (dot_S10000x64_S64x40_S10000x40_1_0_0_1_n_n.lhsIdx y q 0).val = (y 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs_1 (y : S10000x40.Idx) (q : dot_S10000x64_S64x40_S10000x40_1_0_0_1_n_n.contr.Idx) :
    (dot_S10000x64_S64x40_S10000x40_1_0_0_1_n_n.lhsIdx y q 1).val = (q ⟨0, by decide⟩).val :=
  dot_S10000x64_S64x40_S10000x40_1_0_0_1_n_n.lhsIdx_val_of_single rfl y q
theorem rhs_0 (y : S10000x40.Idx) (q : dot_S10000x64_S64x40_S10000x40_1_0_0_1_n_n.contr.Idx) :
    (dot_S10000x64_S64x40_S10000x40_1_0_0_1_n_n.rhsIdx y q 0).val = (q ⟨0, by decide⟩).val :=
  dot_S10000x64_S64x40_S10000x40_1_0_0_1_n_n.rhsIdx_val_of_single rfl y q
theorem rhs_1 (y : S10000x40.Idx) (q : dot_S10000x64_S64x40_S10000x40_1_0_0_1_n_n.contr.Idx) :
    (dot_S10000x64_S64x40_S10000x40_1_0_0_1_n_n.rhsIdx y q 1).val = (y 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The rectified, biased row block at (p, k): the larger of x0 (p, k) + x1 (0, k) and zero. -/
theorem relu_apply (x0 : FVec Ideal S10000x64 .f32) (x1 : FVec Ideal S1x64 .f32) (p : Fin 10000) (k : Fin 64) :
    maximumf (F := Ideal) (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
      = max (x0 (ix2 p k) + x1 (ix2 (0 : Fin 1) k)) 0 := by
  show max (shapeCast S10000x64 x0 shapeCasts_S10000x64_S10000x64 (ix2 p k)
      + broadcastTo S10000x64 (shapeCast S1x64 x1 shapeCasts_S1x64_S1x64) broadcasts_S1x64_S10000x64 (ix2 p k))
      (Ideal.ofBits .f32 0x00000000#32) = _
  rw [shapeCast_self, shapeCast_self, broadcastTo_1b_ab_apply, Ideal.ofBits_zero_f32]

/-- The stored block at (p, q) is the sum over k of max (x0 (p, k) + x1 (0, k)) 0 times x2 (k, q). -/
theorem pay_apply (x0 : Vec Ideal S10000x64 .f32) (x1 : Vec Ideal S1x64 .f32) (x2 : Vec Ideal S64x40 .f32) (y : S10000x40.Idx) :
    k1_pay1 (F := Ideal) x0 x1 x2 y = ∑ k : Fin 64, max (x0 (ix2 (row y) k) + x1 (ix2 (0 : Fin 1) k)) 0 * x2 (ix2 k (col y)) := by
  unfold k1_pay1
  simp only [matmul]
  refine (Ideal.matmul_constant_zero_apply dot_S10000x64_S64x40_S10000x40_1_0_0_1_n_n none _ _ y).trans ?_
  rw [← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx y ((contrEquiv1 dot_S10000x64_S64x40_S10000x40_1_0_0_1_n_n 64 rfl rfl).symm k) = ix2 (row y) k := funext fun a => Fin.ext (by
    match a with
    | ⟨0, _⟩ => exact lhs_0 _ _
    | ⟨1, _⟩ => exact (lhs_1 _ _).trans hk)
  have er : dot_S10000x64_S64x40_S10000x40_1_0_0_1_n_n.rhsIdx y ((contrEquiv1 dot_S10000x64_S64x40_S10000x40_1_0_0_1_n_n 64 rfl rfl).symm k) = ix2 k (col y) := funext fun a => Fin.ext (by
    match a with
    | ⟨0, _⟩ => exact (rhs_0 _ _).trans hk
    | ⟨1, _⟩ => exact rhs_1 _ _)
  rw [el, er]
  exact congrArg (· * x2 (ix2 k (col y))) (relu_apply x0 x1 (row y) k)

/-! ## Where the blocks sit -/

/-- The printed index maps over the grid: the feature and the output blocks move down together, one block of rows
    per point; every other block index is zero. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every block of rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point t writes back is block t of `dense2` of the three input arrays. -/
theorem flushed_eq (c : Dev nD) (t : Fin cfg1.N) :
    (dat1 V c).flushed 3 t = ((cfg1.win 3).blk t).view.read (Elt Ideal) (dense2 (V c main_v45) (V c main_v46) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x40) hz]
  obtain ⟨e0, e1, e2, e3, e4, e5, e6, e7⟩ := idx_facts t
  funext y
  show k1_pay1 (F := Ideal) (iblk1 V c 0 t) (iblk1 V c 1 t) (iblk1 V c 2 t) y
    = dense2 (V c main_v45) (V c main_v46) (V c main_arg5) (((cfg1.win 3).blk t).view.emb y)
  refine (pay_apply (iblk1 V c 0 t) (iblk1 V c 1 t) (iblk1 V c 2 t) y).trans ?_
  unfold dense2
  refine Finset.sum_congr rfl fun k _ => ?_
  have h0 : ((cfg1.win 0).blk t).view.emb (ix2 (row y) k) = ix2 (row (((cfg1.win 3).blk t).view.emb y)) k := by
    funext a; apply Fin.ext
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k (col y)) = ix2 k (col (((cfg1.win 3).blk t).view.emb y)) := by
    funext a; apply Fin.ext
    match a with
    | ⟨0, _⟩ => show win1_2.index t (0 : Fin 2) * 64 + 1 * k.val = k.val; omega
    | ⟨1, _⟩ => show win1_2.index t (1 : Fin 2) * 40 + 1 * (y 1).val = win1_3.index t (1 : Fin 2) * 40 + 1 * (y 1).val; omega
  have a0 : iblk1 V c 0 t (ix2 (row y) k) = V c main_v45 (ix2 (row (((cfg1.win 3).blk t).view.emb y)) k) := by
    show V c main_v45 (((cfg1.win 0).blk t).view.emb (ix2 (row y) k)) = _
    rw [h0]
  have a1 : iblk1 V c 1 t (ix2 (0 : Fin 1) k) = V c main_v46 (ix2 (0 : Fin 1) k) := by
    show V c main_v46 (((cfg1.win 1).blk t).view.emb (ix2 (0 : Fin 1) k)) = _
    rw [h1]
  have a2 : iblk1 V c 2 t (ix2 k (col y)) = V c main_arg5 (ix2 k (col (((cfg1.win 3).blk t).view.emb y))) := by
    show V c main_arg5 (((cfg1.win 2).blk t).view.emb (ix2 k (col y))) = _
    rw [h2]
  rw [a0, a1, a2]

/-- An index of the output array is in point t's block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v47).slice (win1_3.rect t)).set ↔ _
  rw [View.set_slice_whole, Rect.mem_set_unit]
  exact Iff.rfl

/-- The ten blocks cover the output: row r is in the block of point r / 10000. -/
theorem cover (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 40 ≤ (i 1).val ∧ (i 1).val < win1_3.index t (1 : Fin 2) * 40 + 40; omega

/-- After the launch its output array is `dense2` of its three input arrays as the launch found them. -/
theorem final (c : Dev nD) : (dat1 V c).arrAt 3 cfg1.N = dense2 (V c main_v45) (V c main_v46) (V c main_arg5) :=
  (dat1 V c).arrAt_eq_of_cover 3 _ (fun t _ => flushed_eq V c t) cover

end Cert.KernelIdeal.Layer2

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.Epilogue.lean ====
/-
  The third launch: ten blocks of 10000 rows.  Point t loads rows 10000·t … 10000·t + 9999 of the aggregated logits
  (40 columns) and the one-row bias; it adds the bias row to every loaded row and stores, in the same rows of the
  output, the logarithm of the softmax of each row: with M the row's largest entry (a lane reduction with max from
  -infinity), the entry minus M minus the logarithm of the row's sum (a lane reduction with + from zero) of the
  exponentials of the entries minus M.  Each stored row depends only on the same row of the input, so the stored block
  is block t of the whole-array function `epilogue`.  The ten blocks tile the output.
-/
import proofs.«150376_j2448131359492_1_alg».proof.Proof.Gen.KernelIdeal.Frame
import proofs.«150376_j2448131359492_1_alg».proof.Proof.Spec
import proofs.«150376_j2448131359492_1_alg».proof.Proof.LibColumnCast
import proofs.«150376_j2448131359492_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Epilogue

open Cert.KernelIdeal Cert.KernelIdeal.Gen Cert.Gcn Cert.Lib.ColumnCast Cert.Lib.ColumnBroadcast
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The two lane reductions of a block, read at a row -/

/-- The reduced index p of a row with lane k put back is (p, k). -/
theorem lift_ix2 (p : Fin 10000) (k : Fin (S10000x40.size 1)) :
    reduces_S10000x40_S10000.lift (ix1 p) k = ix2 p (⟨k.val, k.isLt⟩ : Fin 40) := by
  funext c; apply Fin.ext
  fin_cases c <;> rfl

/-- The bit pattern of -infinity is the least extended real. -/
theorem ofBits_neg_inf : Ideal.ofBits .f32 0xFF800000#32 = (⊥ : EReal) := by simp [Ideal.ofBits, Ideal.ieee]

/-- The lane maximum of a block at row p is the fold of max from -infinity over that row. -/
theorem laneMax_apply (a : FVec Ideal S10000x40 .f32) (p : Fin 10000) :
    multiReduction (F := Ideal) .maximumf [1] S10000 a 0xFF800000#32 reduces_S10000x40_S10000 (.inl rfl) rfl (ix1 p)
      = rowMax (fun k => a (ix2 p k)) := by
  refine (Ideal.multiReduction_maximumf_single a 0xFF800000#32 reduces_S10000x40_S10000 (.inl rfl) rfl (ix1 p)).trans ?_
  have hf : (a ∘ reduces_S10000x40_S10000.lift (ix1 p)) = fun k : Fin 40 => a (ix2 p k) :=
    funext fun k => congrArg a (lift_ix2 p k)
  unfold rowMax
  show (Finset.univ : Finset (Fin 40)).fold max (Ideal.ofBits .f32 0xFF800000#32) (a ∘ reduces_S10000x40_S10000.lift (ix1 p)) = _
  rw [ofBits_neg_inf, hf]
  rfl

/-- The lane sum of a block at row p is the sum over that row. -/
theorem laneSum_apply (e : FVec Ideal S10000x40 .f32) (p : Fin 10000) :
    multiReduction (F := Ideal) .add [1] S10000 e 0x00000000#32 reduces_S10000x40_S10000 (.inl rfl) rfl (ix1 p)
      = ∑ k : Fin 40, e (ix2 p k) := by
  refine (Ideal.multiReduction_add_single e 0x00000000#32 reduces_S10000x40_S10000 (.inl rfl) rfl (ix1 p)).trans ?_
  exact Finset.sum_congr rfl fun k _ => congrArg e (lift_ix2 p k)

/-- A per-row quantity kept as a column and broadcast along the lanes reads, at (p, k), the quantity of row p. -/
theorem column_apply (v : FVec Ideal S10000 .f32) (p : Fin 10000) (k : Fin 40) :
    broadcastTo S10000x40 (shapeCast S10000x1 v shapeCasts_S10000_S10000x1) broadcasts_S10000x1_S10000x40 (ix2 p k)
      = v (ix1 p) := by
  rw [broadcastTo_a1_ab_apply, shapeCast_a_a1_apply]

/-! ## The stored block at an index -/

/-- The row maximum of a block, as a column broadcast along the lanes. -/
def maxCols (a : FVec Ideal S10000x40 .f32) : FVec Ideal S10000x40 .f32 :=
  broadcastTo S10000x40 (shapeCast S10000x1
    (multiReduction (F := Ideal) .maximumf [1] S10000 a 0xFF800000#32 reduces_S10000x40_S10000 (.inl rfl) rfl)
    shapeCasts_S10000_S10000x1) broadcasts_S10000x1_S10000x40

/-- The body's operations after the bias is added, as one function of the biased block. -/
def tail (a : FVec Ideal S10000x40 .f32) : FVec Ideal S10000x40 .f32 :=
  subf (subf a (maxCols a))
    (broadcastTo S10000x40 (log (shapeCast S10000x1
      (multiReduction (F := Ideal) .add [1] S10000 (exp (subf a (maxCols a))) 0x00000000#32 reduces_S10000x40_S10000 (.inl rfl) rfl)
      shapeCasts_S10000_S10000x1)) broadcasts_S10000x1_S10000x40)

theorem maxCols_apply (a : FVec Ideal S10000x40 .f32) (p : Fin 10000) (k : Fin 40) :
    maxCols a (ix2 p k) = rowMax (fun k => a (ix2 p k)) :=
  (column_apply _ p k).trans (laneMax_apply a p)

/-- The tail at (p, q) is the logarithm of the softmax of row p of the biased block, at lane q. -/
theorem tail_apply (a : FVec Ideal S10000x40 .f32) (p : Fin 10000) (q : Fin 40) :
    tail a (ix2 p q) = logSoftmaxRow (fun k => a (ix2 p k)) q := by
  unfold tail logSoftmaxRow
  show (a (ix2 p q) - maxCols a (ix2 p q))
      - broadcastTo S10000x40 (log (shapeCast S10000x1
          (multiReduction (F := Ideal) .add [1] S10000 (exp (subf a (maxCols a))) 0x00000000#32 reduces_S10000x40_S10000 (.inl rfl) rfl)
          shapeCasts_S10000_S10000x1)) broadcasts_S10000x1_S10000x40 (ix2 p q) = _
  rw [maxCols_apply, broadcastTo_a1_ab_apply]
  show _ - Ideal.log (shapeCast S10000x1
          (multiReduction (F := Ideal) .add [1] S10000 (exp (subf a (maxCols a))) 0x00000000#32 reduces_S10000x40_S10000 (.inl rfl) rfl)
          shapeCasts_S10000_S10000x1 (ix2 p (0 : Fin 1))) = _
  rw [shapeCast_a_a1_apply, laneSum_apply]
  refine congrArg (fun s => (a (ix2 p q) - rowMax (fun k => a (ix2 p k))) - Ideal.log s) ?_
  refine Finset.sum_congr rfl fun k _ => ?_
  show Ideal.exp (a (ix2 p k) - maxCols a (ix2 p k)) = _
  rw [maxCols_apply]

/-- The biased block at (p, k): the loaded entry plus the bias row's entry of lane k. -/
theorem biased_apply (x0 : FVec Ideal S10000x40 .f32) (x1 : FVec Ideal S1x40 .f32) (p : Fin 10000) (k : Fin 40) :
    addf (F := Ideal) (shapeCast S10000x40 x0 shapeCasts_S10000x40_S10000x40)
      (broadcastTo S10000x40 (shapeCast S1x40 x1 shapeCasts_S1x40_S1x40) broadcasts_S1x40_S10000x40) (ix2 p k)
      = x0 (ix2 p k) + x1 (ix2 (0 : Fin 1) k) := by
  show shapeCast S10000x40 x0 shapeCasts_S10000x40_S10000x40 (ix2 p k)
      + broadcastTo S10000x40 (shapeCast S1x40 x1 shapeCasts_S1x40_S1x40) broadcasts_S1x40_S10000x40 (ix2 p k) = _
  rw [shapeCast_self, shapeCast_self, broadcastTo_1b_ab_apply]

/-- The stored block at (p, q) is the logarithm of the softmax of the biased row p, at lane q. -/
theorem pay_apply (x0 : Vec Ideal S10000x40 .f32) (x1 : Vec Ideal S1x40 .f32) (p : Fin 10000) (q : Fin 40) :
    k2_pay1 (F := Ideal) x0 x1 (ix2 p q) = logSoftmaxRow (fun k => x0 (ix2 p k) + x1 (ix2 (0 : Fin 1) k)) q := by
  have h : k2_pay1 (F := Ideal) x0 x1 = tail (addf (φ := .f32) (shapeCast S10000x40 x0 shapeCasts_S10000x40_S10000x40)
      (broadcastTo S10000x40 (shapeCast S1x40 x1 shapeCasts_S1x40_S1x40) broadcasts_S1x40_S10000x40)) := rfl
  rw [h, tail_apply]
  exact congrArg (fun z => logSoftmaxRow z q) (funext fun k => biased_apply x0 x1 p k)

/-! ## Where the blocks sit -/

/-- The printed index maps over the grid: the input and the output blocks move down together, one block of rows per
    point; every other block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block of rows is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point t writes back is block t of `epilogue` of the two input arrays. -/
theorem flushed_eq (c : Dev nD) (t : Fin cfg2.N) :
    (dat2 V c).flushed 2 t = ((cfg2.win 2).blk t).view.read (Elt Ideal) (epilogue (V c main_v60) (V c main_v61)) := by
  show (cfg2.win 2).cut (grid2.coords t) ((dat2 V c).after 2 t) = _
  rw [after2_2]
  unfold out2_2
  rw [View.canon_unit_zero hz]
  simp only [View.ld_unit_zero (S := S10000x40) hz, View.ld_unit_zero (S := S1x40) hz]
  obtain ⟨e0, e1, e2, e3, e4, e5⟩ := idx_facts t
  funext y
  obtain ⟨p, q, rfl⟩ : ∃ (p : Fin 10000) (q : Fin 40), y = ix2 p q := ⟨y 0, y 1, eq_ix2 y⟩
  show k2_pay1 (F := Ideal) (iblk2 V c 0 t) (iblk2 V c 1 t) (ix2 p q)
    = epilogue (V c main_v60) (V c main_v61) (((cfg2.win 2).blk t).view.emb (ix2 p q))
  refine (pay_apply (iblk2 V c 0 t) (iblk2 V c 1 t) p q).trans ?_
  unfold epilogue
  have hq : col (((cfg2.win 2).blk t).view.emb (ix2 p q)) = q := by
    apply Fin.ext
    show win2_2.index t (1 : Fin 2) * 40 + 1 * q.val = q.val; omega
  rw [hq]
  refine congrArg (fun z => logSoftmaxRow z q) (funext fun k => ?_)
  have h0 : ((cfg2.win 0).blk t).view.emb (ix2 p k) = ix2 (row (((cfg2.win 2).blk t).view.emb (ix2 p q))) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 40 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 40 + 1 * k.val = k.val; omega
  have a0 : iblk2 V c 0 t (ix2 p k) = V c main_v60 (ix2 (row (((cfg2.win 2).blk t).view.emb (ix2 p q))) k) := by
    show V c main_v60 (((cfg2.win 0).blk t).view.emb (ix2 p k)) = _
    rw [h0]
  have a1 : iblk2 V c 1 t (ix2 (0 : Fin 1) k) = V c main_v61 (ix2 (0 : Fin 1) k) := by
    show V c main_v61 (((cfg2.win 1).blk t).view.emb (ix2 (0 : Fin 1) k)) = _
    rw [h1]
  rw [a0, a1]

/-- An index of the output array is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v62).slice (win2_2.rect t)).set ↔ _
  rw [View.set_slice_whole, Rect.mem_set_unit]
  exact Iff.rfl

/-- The ten blocks cover the output: row r is in the block of point r / 10000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- After the launch its output array is `epilogue` of its two input arrays as the launch found them. -/
theorem final (c : Dev nD) : (dat2 V c).arrAt 2 cfg2.N = epilogue (V c main_v60) (V c main_v61) :=
  (dat2 V c).arrAt_eq_of_cover 2 _ (fun t _ => flushed_eq V c t) cover

end Cert.KernelIdeal.Epilogue

end
-- ==== Proof.KernelStretch0.lean ====
/-
  The kernel program's host operations before its first launch, read in their three consecutive stretches.

  The first stretch builds, from the edge list and the edge weights, the sources and the destinations (each edge
  endpoint list followed by one self loop per node), the weights (followed by a one per self loop), the comparison of
  the weighted in-degree with zero and its inverse square root; the second (an outlined selection) keeps the inverse
  square root where the degree is positive and zero elsewhere; the third multiplies, per edge, the kept value at the
  source, the weight and the kept value at the destination: the edge norm.  Each stretch is read as a function of the
  few buffers it reads, and each is, operation for operation, the reference's: so the sources, the destinations and the
  norm entering the first launch are the reference's stages of the edge list and the edge weights.
-/
import proofs.«150376_j2448131359492_1_alg».proof.Proof.Gen.KernelIdeal.Frame
import proofs.«150376_j2448131359492_1_alg».proof.Proof.RefReadP
import Idealize.ShloMosaic.Lib.StableHlo.Run

noncomputable section

namespace Cert.KernelIdeal.Stretch0

open Cert.KernelIdeal Cert.KernelIdeal.Gen
open Idealize.ShloMosaic Idealize.ShloMosaic.TcCoe Idealize.SL.Sem Idealize.ShloMosaic.StableHlo

variable (U : Valuation τ sig (Elt Ideal))

/-! ## The first stretch -/

theorem s0_v3 : after (hostOps0 (F := Ideal)) U (Proc.devRef .tc main_v3) = Cert.ReferenceIdeal.ReadP.val_main_v3 (F := Ideal) (U (Proc.devRef .tc main_arg1)) := by
  after_results
  rfl
theorem s0_v6 : after (hostOps0 (F := Ideal)) U (Proc.devRef .tc main_v6) = Cert.ReferenceIdeal.ReadP.val_main_v6 (F := Ideal) (U (Proc.devRef .tc main_arg1)) := by
  after_results
  rfl
theorem s0_v8 : after (hostOps0 (F := Ideal)) U (Proc.devRef .tc main_v8) = Cert.ReferenceIdeal.ReadP.val_main_v8 (F := Ideal) (U (Proc.devRef .tc main_arg2)) := by
  after_results
  rfl
set_option maxHeartbeats 1000000 in
theorem s0_v13 : after (hostOps0 (F := Ideal)) U (Proc.devRef .tc main_v13) = Cert.ReferenceIdeal.ReadP.val_main_v13 (F := Ideal) (U (Proc.devRef .tc main_arg1)) (U (Proc.devRef .tc main_arg2)) := by
  after_results
  rfl
set_option maxHeartbeats 1000000 in
theorem s0_v14 : after (hostOps0 (F := Ideal)) U (Proc.devRef .tc main_v14) = Cert.ReferenceIdeal.ReadP.val_main_v14 (F := Ideal) (U (Proc.devRef .tc main_arg1)) (U (Proc.devRef .tc main_arg2)) := by
  after_results
  rfl
theorem s0_cst_2 : after (hostOps0 (F := Ideal)) U (Proc.devRef .tc main_cst_2) = Cert.ReferenceIdeal.ReadP.val_main_cst_2 (F := Ideal) := by
  after_results
  rfl
theorem s0_arg0 : after (hostOps0 (F := Ideal)) U (Proc.devRef .tc main_arg0) = U (Proc.devRef .tc main_arg0) := by after_results
theorem s0_arg3 : after (hostOps0 (F := Ideal)) U (Proc.devRef .tc main_arg3) = U (Proc.devRef .tc main_arg3) := by after_results
theorem s0_arg4 : after (hostOps0 (F := Ideal)) U (Proc.devRef .tc main_arg4) = U (Proc.devRef .tc main_arg4) := by after_results
theorem s0_arg5 : after (hostOps0 (F := Ideal)) U (Proc.devRef .tc main_arg5) = U (Proc.devRef .tc main_arg5) := by after_results
theorem s0_arg6 : after (hostOps0 (F := Ideal)) U (Proc.devRef .tc main_arg6) = U (Proc.devRef .tc main_arg6) := by after_results

/-! ## The second stretch: the outlined selection -/

theorem s1_v15 : after (hostOps0_1 (F := Ideal)) U (Proc.devRef .tc main_v15)
    = select (U (Proc.devRef .tc main_v13)) (U (Proc.devRef .tc main_v14)) (broadcastInDim S100000 ![] bcast_S_S100000 (U (Proc.devRef .tc main_cst_2))) := by
  after_results
  simp only [TRef.ofBuf, TRef.toBuf, cast_cast, cast_eq]
  rfl
theorem s1_v3 : after (hostOps0_1 (F := Ideal)) U (Proc.devRef .tc main_v3) = U (Proc.devRef .tc main_v3) := by after_results
theorem s1_v6 : after (hostOps0_1 (F := Ideal)) U (Proc.devRef .tc main_v6) = U (Proc.devRef .tc main_v6) := by after_results
theorem s1_v8 : after (hostOps0_1 (F := Ideal)) U (Proc.devRef .tc main_v8) = U (Proc.devRef .tc main_v8) := by after_results
theorem s1_arg0 : after (hostOps0_1 (F := Ideal)) U (Proc.devRef .tc main_arg0) = U (Proc.devRef .tc main_arg0) := by after_results
theorem s1_arg3 : after (hostOps0_1 (F := Ideal)) U (Proc.devRef .tc main_arg3) = U (Proc.devRef .tc main_arg3) := by after_results
theorem s1_arg4 : after (hostOps0_1 (F := Ideal)) U (Proc.devRef .tc main_arg4) = U (Proc.devRef .tc main_arg4) := by after_results
theorem s1_arg5 : after (hostOps0_1 (F := Ideal)) U (Proc.devRef .tc main_arg5) = U (Proc.devRef .tc main_arg5) := by after_results
theorem s1_arg6 : after (hostOps0_1 (F := Ideal)) U (Proc.devRef .tc main_arg6) = U (Proc.devRef .tc main_arg6) := by after_results

/-! ## The third stretch: the edge norm -/

/-- The edge norm from the kept inverse square roots `r`, the sources `s`, the destinations `d` and the weights `w`. -/
def norm (r : FVec Ideal S100000 .f32) (s d : IVec S1700000 32) (w : FVec Ideal S1700000 .f32) : FVec Ideal S1700000 .f32 :=
  mulf (mulf (Host.gather gather_S100000_S1700000x1_S1700000_n_0_n_n_0_1_1 r
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s))) w)
    (Host.gather gather_S100000_S1700000x1_S1700000_n_0_n_n_0_1_1 r
      (broadcastInDim S1700000x1 ![0] bcast_S1700000_S1700000x1_0
        (select (cmpi .slt d (broadcastInDim S1700000 ![] bcast_S_S1700000 (constantI S_ 32 0#32)))
          (addi d (broadcastInDim S1700000 ![] bcast_S_S1700000 (constantI S_ 32 100000#32))) d)))

set_option maxHeartbeats 2000000 in
theorem s2_v31 : after (hostOps0_2 (F := Ideal)) U (Proc.devRef .tc main_v31)
    = norm (U (Proc.devRef .tc main_v15)) (U (Proc.devRef .tc main_v3)) (U (Proc.devRef .tc main_v6)) (U (Proc.devRef .tc main_v8)) := by
  after_results
  rfl
theorem s2_v3 : after (hostOps0_2 (F := Ideal)) U (Proc.devRef .tc main_v3) = U (Proc.devRef .tc main_v3) := by after_results
theorem s2_v6 : after (hostOps0_2 (F := Ideal)) U (Proc.devRef .tc main_v6) = U (Proc.devRef .tc main_v6) := by after_results
theorem s2_arg0 : after (hostOps0_2 (F := Ideal)) U (Proc.devRef .tc main_arg0) = U (Proc.devRef .tc main_arg0) := by after_results
theorem s2_arg3 : after (hostOps0_2 (F := Ideal)) U (Proc.devRef .tc main_arg3) = U (Proc.devRef .tc main_arg3) := by after_results
theorem s2_arg4 : after (hostOps0_2 (F := Ideal)) U (Proc.devRef .tc main_arg4) = U (Proc.devRef .tc main_arg4) := by after_results
theorem s2_arg5 : after (hostOps0_2 (F := Ideal)) U (Proc.devRef .tc main_arg5) = U (Proc.devRef .tc main_arg5) := by after_results
theorem s2_arg6 : after (hostOps0_2 (F := Ideal)) U (Proc.devRef .tc main_arg6) = U (Proc.devRef .tc main_arg6) := by after_results

/-! ## The three stretches together -/

/-- The reference's norm stage is the same function of its own kept inverse square roots, sources, destinations and weights. -/
theorem ref_v31 (x1 : (⟨Cert.ReferenceIdeal.S2x1600000, .i32⟩ : BufTy).Contents (Elt Ideal)) (x2 : (⟨Cert.ReferenceIdeal.S1600000, .f32⟩ : BufTy).Contents (Elt Ideal)) :
    Cert.ReferenceIdeal.ReadP.val_main_v31 (F := Ideal) x1 x2
      = norm (Cert.ReferenceIdeal.ReadP.val_main_v15 (F := Ideal) x1 x2) (Cert.ReferenceIdeal.ReadP.val_main_v3 (F := Ideal) x1) (Cert.ReferenceIdeal.ReadP.val_main_v6 (F := Ideal) x1) (Cert.ReferenceIdeal.ReadP.val_main_v8 (F := Ideal) x2) := rfl

/-- The reference's kept inverse square roots are the same selection. -/
theorem ref_v15 (x1 : (⟨Cert.ReferenceIdeal.S2x1600000, .i32⟩ : BufTy).Contents (Elt Ideal)) (x2 : (⟨Cert.ReferenceIdeal.S1600000, .f32⟩ : BufTy).Contents (Elt Ideal)) :
    Cert.ReferenceIdeal.ReadP.val_main_v15 (F := Ideal) x1 x2
      = select (Cert.ReferenceIdeal.ReadP.val_main_v13 (F := Ideal) x1 x2) (Cert.ReferenceIdeal.ReadP.val_main_v14 (F := Ideal) x1 x2)
          (broadcastInDim S100000 ![] bcast_S_S100000 (Cert.ReferenceIdeal.ReadP.val_main_cst_2 (F := Ideal))) := rfl

def all (U : Valuation τ sig (Elt Ideal)) : Valuation τ sig (Elt Ideal) :=
  after (hostOps0_2 (F := Ideal)) (after (hostOps0_1 (F := Ideal)) (after (hostOps0 (F := Ideal)) U))

theorem all_v3 : all U (Proc.devRef .tc main_v3) = Cert.ReferenceIdeal.ReadP.val_main_v3 (F := Ideal) (U (Proc.devRef .tc main_arg1)) := by
  unfold all; rw [s2_v3, s1_v3, s0_v3]
theorem all_v6 : all U (Proc.devRef .tc main_v6) = Cert.ReferenceIdeal.ReadP.val_main_v6 (F := Ideal) (U (Proc.devRef .tc main_arg1)) := by
  unfold all; rw [s2_v6, s1_v6, s0_v6]
theorem all_v31 : all U (Proc.devRef .tc main_v31) = Cert.ReferenceIdeal.ReadP.val_main_v31 (F := Ideal) (U (Proc.devRef .tc main_arg1)) (U (Proc.devRef .tc main_arg2)) := by
  unfold all
  rw [s2_v31, s1_v15, s1_v3, s1_v6, s1_v8, s0_v13, s0_v14, s0_cst_2, s0_v3, s0_v6, s0_v8, ref_v31, ref_v15]
theorem all_arg0 : all U (Proc.devRef .tc main_arg0) = U (Proc.devRef .tc main_arg0) := by
  unfold all; rw [s2_arg0, s1_arg0, s0_arg0]
theorem all_arg3 : all U (Proc.devRef .tc main_arg3) = U (Proc.devRef .tc main_arg3) := by
  unfold all; rw [s2_arg3, s1_arg3, s0_arg3]
theorem all_arg4 : all U (Proc.devRef .tc main_arg4) = U (Proc.devRef .tc main_arg4) := by
  unfold all; rw [s2_arg4, s1_arg4, s0_arg4]
theorem all_arg5 : all U (Proc.devRef .tc main_arg5) = U (Proc.devRef .tc main_arg5) := by
  unfold all; rw [s2_arg5, s1_arg5, s0_arg5]
theorem all_arg6 : all U (Proc.devRef .tc main_arg6) = U (Proc.devRef .tc main_arg6) := by
  unfold all; rw [s2_arg6, s1_arg6, s0_arg6]

end Cert.KernelIdeal.Stretch0

end
-- ==== Proof.RefStages.lean ====
/-
  The reference program, stage by stage, as the whole-array functions of the specification.

  Its two matrix products are `dense1` and `dense2` (the second applied to the aggregated features, the broadcast
  bias and the weights: the bias row enters only through its one row, and the rectifier's zero is the extended real
  zero).  Its logarithm of the softmax is `epilogue`: the row maximum is the fold of max from -infinity (the further
  maximum with -infinity changes nothing), the row sum starts from zero (adding zero changes nothing), and the two
  subtractions are in the same order.  Between these stages it gathers rows along the edges' sources, scales them by
  the edge norm and sums them into the edges' destinations; each such stretch is named here as one function of the
  features, the two index vectors and the norm, and is never opened.
-/
import proofs.«150376_j2448131359492_1_alg».proof.Proof.RefReadP
import proofs.«150376_j2448131359492_1_alg».proof.Proof.Spec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.ReadP Cert.Gcn
open Idealize.ShloMosaic Idealize.ShloMosaic.TcCoe Idealize.ShloMosaic.ValueIdx

/-! ## The gather, scale and scatter-add stretches, each as one function -/

section Agg
variable {F : FTy → Type} [FloatOps F]

/-- Rows of `h` gathered along the sources `s` (an index below zero counted from the end), scaled by the norm `n`,
    summed into the destinations `d`: 64 columns. -/
def agg64 (h : (⟨S100000x64, .f32⟩ : BufTy).Contents (Elt F)) (s d : (⟨S1700000, .i32⟩ : BufTy).Contents (Elt F))
    (n : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf (Host.gather gather_S100000x64_S1700000x1_S1700000x64_1_0_n_n_0_1_164 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1
        (broadcastInDim S1700000x1 ![0] bcast_S1700000_S1700000x1_0 n)))

/-- The same with 40 columns. -/
def agg40 (h : (⟨S100000x40, .f32⟩ : BufTy).Contents (Elt F)) (s d : (⟨S1700000, .i32⟩ : BufTy).Contents (Elt F))
    (n : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant (F := F) S_ .f32 0x00000000#32))
    (broadcastInDim S1700000x1 ![0] bcast_S1700000_S1700000x1_0 d)
    (mulf (Host.gather gather_S100000x40_S1700000x1_S1700000x40_1_0_n_n_0_1_140 h
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x40 ![0, 1] bcast_S1700000x1_S1700000x40_0_1
        (broadcastInDim S1700000x1 ![0] bcast_S1700000_S1700000x1_0 n)))

end Agg

variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal))

/-- The first aggregation is `agg64` of the first product, the sources, the destinations and the norm. -/
theorem v45_eq : val_main_v45 (F := Ideal) x0 x1 x2 x3
    = agg64 (val_main_v32 (F := Ideal) x0 x3) (val_main_v3 (F := Ideal) x1) (val_main_v6 (F := Ideal) x1) (val_main_v31 (F := Ideal) x1 x2) := rfl

/-- The second aggregation is `agg40` of the second product, the same sources, destinations and norm. -/
theorem v63_eq : val_main_v63 (F := Ideal) x0 x1 x2 x3 x4 x5
    = agg40 (val_main_v50 (F := Ideal) x0 x1 x2 x3 x4 x5) (val_main_v3 (F := Ideal) x1) (val_main_v6 (F := Ideal) x1) (val_main_v31 (F := Ideal) x1 x2) := rfl

/-! ## The dense stages -/

/-- The first product is `dense1`. -/
theorem v32_eq : val_main_v32 (F := Ideal) x0 x3 = dense1 x0 x3 := by
  funext i
  rw [val_main_v32_apply]
  unfold dense1
  refine Finset.sum_congr rfl fun k _ => ?_
  have el : lidx_main_v32 i k = ix2 (row i) k := funext fun a => Fin.ext (by match a with | ⟨0, _⟩ => rfl | ⟨1, _⟩ => rfl)
  have er : ridx_main_v32 i k = ix2 k (col i) := funext fun a => Fin.ext (by match a with | ⟨0, _⟩ => rfl | ⟨1, _⟩ => rfl)
  rw [el, er]

/-- The second product, after the bias and the rectifier, is `dense2` of the aggregated features, the bias as a one-row
    array and the weights. -/
theorem v50_eq : val_main_v50 (F := Ideal) x0 x1 x2 x3 x4 x5
    = dense2 (val_main_v45 (F := Ideal) x0 x1 x2 x3) (val_main_v46 (F := Ideal) x4) x5 := by
  funext i
  rw [val_main_v50_apply]
  unfold dense2
  refine Finset.sum_congr rfl fun k _ => ?_
  have el : lidx_main_v50 i k = ix2 (row i) k := funext fun a => Fin.ext (by match a with | ⟨0, _⟩ => rfl | ⟨1, _⟩ => rfl)
  have er : ridx_main_v50 i k = ix2 k (col i) := funext fun a => Fin.ext (by match a with | ⟨0, _⟩ => rfl | ⟨1, _⟩ => rfl)
  have e47 : idx_main_v47 (ix2 (row i) k) = ix2 (0 : Fin 1) k := funext fun a => Fin.ext (by match a with | ⟨0, _⟩ => rfl | ⟨1, _⟩ => rfl)
  rw [el, er, val_main_v49_apply, val_main_v48_apply, val_main_v47_apply, val_main_call1_v0_apply, val_main_call1_cst_apply, e47]
  show max (val_main_v45 (F := Ideal) x0 x1 x2 x3 (ix2 (row i) k) + val_main_v46 (F := Ideal) x4 (ix2 (0 : Fin 1) k)) (Ideal.ofBits .f32 0x00000000#32) * x5 (ix2 k (col i)) = _
  rw [Ideal.ofBits_zero_f32]

/-! ## The logarithm of the softmax -/

theorem ofBits_neg_inf : Ideal.ofBits .f32 0xFF800000#32 = (⊥ : EReal) := by simp [Ideal.ofBits, Ideal.ieee]

/-- The biased logits at (p, k): the aggregated entry plus the bias row's entry of column k. -/
theorem v66_apply' (p : Fin 100000) (k : Fin 40) :
    val_main_v66 (F := Ideal) x0 x1 x2 x3 x4 x5 x6 (ix2 p k)
      = val_main_v63 (F := Ideal) x0 x1 x2 x3 x4 x5 (ix2 p k) + val_main_v64 (F := Ideal) x6 (ix2 (0 : Fin 1) k) := by
  have e65 : idx_main_v65 (ix2 p k) = ix2 (0 : Fin 1) k := funext fun a => Fin.ext (by match a with | ⟨0, _⟩ => rfl | ⟨1, _⟩ => rfl)
  rw [val_main_v66_apply, val_main_v65_apply, e65]
  rfl

/-- The reduced index p of a row with column k put back is (p, k). -/
theorem lift_ix2 (h : S100000x40.Reduces [1] S100000) (p : Fin 100000) (k : Fin (S100000x40.size 1)) :
    h.lift (ix1 p) k = ix2 p (⟨k.val, k.isLt⟩ : Fin 40) := by
  funext c; apply Fin.ext
  fin_cases c <;> rfl

/-- The row maximum at row p is the fold of max from -infinity over the row of biased logits. -/
theorem v2_apply' (p : Fin 100000) :
    val_main_call2_v2 (F := Ideal) x0 x1 x2 x3 x4 x5 x6 (ix1 p) = rowMax (fun k => val_main_v66 (F := Ideal) x0 x1 x2 x3 x4 x5 x6 (ix2 p k)) := by
  have h : S100000x40.Reduces [1] S100000 := by decide
  rw [val_main_call2_v2_apply, val_main_call2_v1_apply, val_main_call2_cst_0_apply]
  unfold val_main_call2_v0
  obtain ⟨Z, hZ⟩ : ∃ Z : S100000x40.Idx → EReal, val_main_v66 (F := Ideal) x0 x1 x2 x3 x4 x5 x6 = Z := ⟨_, rfl⟩
  rw [hZ]
  have hr := Host.reduce_eq_fold_single (s := S100000x40) (t := S100000) (a := 1) (α := Ideal .f32) FloatOps.maximumf Z
    (val_main_call2_cst (F := Ideal)) reducesTo_S100000x40_S100000_d1 h h_S_ (ix1 p)
  refine (congrArg (fun t => FloatOps.maximumf (F := Ideal) (FloatOps.ofBits .f32 0xFF800000#32) t) hr).trans ?_
  have hf : (Z ∘ h.lift (ix1 p)) = fun k : Fin 40 => Z (ix2 p k) := funext fun k => congrArg Z (lift_ix2 h p k)
  unfold rowMax
  show max (Ideal.ofBits .f32 0xFF800000#32)
      ((Finset.univ : Finset (Fin 40)).fold max (Ideal.ofBits .f32 0xFF800000#32) (Z ∘ h.lift (ix1 p))) = _
  rw [ofBits_neg_inf, hf, max_bot_left]
  rfl

/-- The shifted logits at (p, k): the biased entry minus its row's maximum. -/
theorem v5_apply' (p : Fin 100000) (k : Fin 40) :
    val_main_call2_v5 (F := Ideal) x0 x1 x2 x3 x4 x5 x6 (ix2 p k)
      = val_main_v66 (F := Ideal) x0 x1 x2 x3 x4 x5 x6 (ix2 p k) - rowMax (fun k => val_main_v66 (F := Ideal) x0 x1 x2 x3 x4 x5 x6 (ix2 p k)) := by
  have e : idx_main_call2_v3 (idx_main_call2_v4 (ix2 p k)) = ix1 p := funext fun a => Fin.ext (by match a with | ⟨0, _⟩ => rfl)
  rw [val_main_call2_v5_apply, val_main_call2_v4_apply, val_main_call2_v3_apply, e, v2_apply']
  rfl

/-- The row sum at row p: the sum over the row of the exponentials of the shifted logits. -/
theorem v7_apply' (p : Fin 100000) :
    val_main_call2_v7 (F := Ideal) x0 x1 x2 x3 x4 x5 x6 (ix1 p)
      = ∑ k : Fin 40, Ideal.exp (val_main_call2_v5 (F := Ideal) x0 x1 x2 x3 x4 x5 x6 (ix2 p k)) := by
  rw [val_main_call2_v7_apply, val_main_call2_cst_1_apply]
  show Ideal.ofBits .f32 0x00000000#32 + _ = _
  rw [Ideal.ofBits_zero_f32, zero_add]
  refine Finset.sum_congr rfl fun k _ => ?_
  have e : idx_main_call2_v7 (ix1 p) k = ix2 p k := funext fun a => Fin.ext (by match a with | ⟨0, _⟩ => rfl | ⟨1, _⟩ => rfl)
  rw [e, val_main_call2_v6_apply]
  exact Ideal.hostUnary_exp_def (φ := .f32) _

/-- The result at (p, q): the shifted logit minus the logarithm of its row's sum. -/
theorem v67_apply' (p : Fin 100000) (q : Fin 40) :
    val_main_v67 (F := Ideal) x0 x1 x2 x3 x4 x5 x6 (ix2 p q)
      = val_main_call2_v5 (F := Ideal) x0 x1 x2 x3 x4 x5 x6 (ix2 p q) - Ideal.log (val_main_call2_v7 (F := Ideal) x0 x1 x2 x3 x4 x5 x6 (ix1 p)) := by
  have e : idx_main_call2_v8 (idx_main_call2_v10 (ix2 p q)) = ix1 p := funext fun a => Fin.ext (by match a with | ⟨0, _⟩ => rfl)
  rw [val_main_v67_apply, val_main_call2_v10_apply, val_main_call2_v9_apply, val_main_call2_v8_apply, e]
  simp only [Ideal.subf_def, Ideal.hostUnary_log_def]

/-- The reference's result is `epilogue` of the second aggregation and the bias as a one-row array. -/
theorem v67_eq : val_main_v67 (F := Ideal) x0 x1 x2 x3 x4 x5 x6
    = epilogue (val_main_v63 (F := Ideal) x0 x1 x2 x3 x4 x5) (val_main_v64 (F := Ideal) x6) := by
  funext i
  obtain ⟨p, q, rfl⟩ : ∃ (p : Fin 100000) (q : Fin 40), i = ix2 p q := ⟨i 0, i 1, eq_ix2 i⟩
  rw [v67_apply', v7_apply']
  simp only [v5_apply', v66_apply']
  generalize val_main_v63 (F := Ideal) x0 x1 x2 x3 x4 x5 = A
  generalize val_main_v64 (F := Ideal) x6 = B
  rfl

end Cert.ReferenceIdeal.Stages

end
-- ==== Proof.KernelStretch.lean ====
/-
  The kernel program's host stretches, read at the buffers the launches take.

  Before the first launch the host builds the sources, the destinations and the edge norm from the edge list and the
  edge weights; after each of the first two launches it gathers the launch's output along the sources, scales by the
  norm, sums into the destinations, and reshapes the next bias vector to one row.  These are, operation for
  operation, the reference's own host operations on the same buffers, so each stretch's result is the reference's
  function of what the stretch reads: the stretches are compared as wholes and never opened.
-/
import proofs.«150376_j2448131359492_1_alg».proof.Proof.Gen.KernelIdeal.Frame
import proofs.«150376_j2448131359492_1_alg».proof.Proof.RefStages
import Idealize.ShloMosaic.Lib.StableHlo.Run

noncomputable section

namespace Cert.KernelIdeal.Stretch

open Cert.KernelIdeal Cert.KernelIdeal.Gen
open Idealize.ShloMosaic Idealize.ShloMosaic.TcCoe Idealize.SL.Sem Idealize.ShloMosaic.StableHlo

variable (U : Valuation τ sig (Elt Ideal))

/-! ## Between the first and the second launch -/

set_option maxHeartbeats 4000000 in
/-- The first aggregation: the reference's `agg64` of the first launch's output, the sources, the destinations and the norm. -/
theorem after1_v45 : after (hostOps1 (F := Ideal)) U (Proc.devRef .tc main_v45)
    = Cert.ReferenceIdeal.Stages.agg64 (F := Ideal) (U (Proc.devRef .tc main_v32)) (U (Proc.devRef .tc main_v3)) (U (Proc.devRef .tc main_v6)) (U (Proc.devRef .tc main_v31)) := by
  after_results
  rfl

/-- The first bias as one row. -/
theorem after1_v46 : after (hostOps1 (F := Ideal)) U (Proc.devRef .tc main_v46)
    = shapeCast S1x64 (U (Proc.devRef .tc main_arg4)) shapeCasts_S64_S1x64 := by
  after_results
  rfl

theorem after1_arg5 : after (hostOps1 (F := Ideal)) U (Proc.devRef .tc main_arg5) = U (Proc.devRef .tc main_arg5) := by after_results
theorem after1_arg6 : after (hostOps1 (F := Ideal)) U (Proc.devRef .tc main_arg6) = U (Proc.devRef .tc main_arg6) := by after_results
theorem after1_v3 : after (hostOps1 (F := Ideal)) U (Proc.devRef .tc main_v3) = U (Proc.devRef .tc main_v3) := by after_results
theorem after1_v6 : after (hostOps1 (F := Ideal)) U (Proc.devRef .tc main_v6) = U (Proc.devRef .tc main_v6) := by after_results
theorem after1_v31 : after (hostOps1 (F := Ideal)) U (Proc.devRef .tc main_v31) = U (Proc.devRef .tc main_v31) := by after_results

/-! ## Between the second and the third launch -/

set_option maxHeartbeats 4000000 in
/-- The second aggregation: the reference's `agg40` of the second launch's output, the sources, the destinations and the norm. -/
theorem after2_v60 : after (hostOps2 (F := Ideal)) U (Proc.devRef .tc main_v60)
    = Cert.ReferenceIdeal.Stages.agg40 (F := Ideal) (U (Proc.devRef .tc main_v47)) (U (Proc.devRef .tc main_v3)) (U (Proc.devRef .tc main_v6)) (U (Proc.devRef .tc main_v31)) := by
  after_results
  rfl

/-- The second bias as one row. -/
theorem after2_v61 : after (hostOps2 (F := Ideal)) U (Proc.devRef .tc main_v61)
    = shapeCast S1x40 (U (Proc.devRef .tc main_arg6)) shapeCasts_S40_S1x40 := by
  after_results
  rfl

end Cert.KernelIdeal.Stretch

end
-- ==== Proof.KernelValue.lean ====
/-
  The idealized kernel's result, as a function of its seven arguments.

  Walking the boundaries of the run from the last to the first: the result buffer holds what the third launch wrote,
  `epilogue` of the second aggregation and the second bias row; the second aggregation is the shared host stretch
  applied to what the second launch wrote, `dense2` of the first aggregation, the first bias row and the second
  weights; the first aggregation is the shared host stretch applied to what the first launch wrote, `dense1` of the
  features and the first weights; the sources, destinations and norm are the shared host stretch of the edge list and
  the edge weights; and no launch or stretch writes an argument.  The reference's stages are the same functions, and a
  bias reshaped to one row and the same bias broadcast to one row hold the same entries, so the result is the
  reference's last stage of the same seven arrays.
-/
import proofs.«150376_j2448131359492_1_alg».proof.Proof.Gen.KernelIdeal.Frame
import proofs.«150376_j2448131359492_1_alg».proof.Proof.Layer1
import proofs.«150376_j2448131359492_1_alg».proof.Proof.Layer2
import proofs.«150376_j2448131359492_1_alg».proof.Proof.Epilogue
import proofs.«150376_j2448131359492_1_alg».proof.Proof.KernelStretch0
import proofs.«150376_j2448131359492_1_alg».proof.Proof.KernelStretch
import proofs.«150376_j2448131359492_1_alg».proof.Proof.RefStages
import Idealize.ShloMosaic.Lib.ValueLayout

set_option maxRecDepth 16384

noncomputable section

namespace Cert.KernelIdeal.Value

open Cert.KernelIdeal Cert.KernelIdeal.Gen Cert.KernelIdeal.Stretch Cert.KernelIdeal.Stretch0 Cert.Gcn
open Idealize.ShloMosaic Idealize.ShloMosaic.TcCoe Idealize.ShloMosaic.ValueIdx Idealize.SL.Sem Idealize.ShloMosaic.StableHlo

/-! ## A bias row enters a stage only through its one row -/

theorem dense2_congr_bias (A : (⟨2, ![100000, 64]⟩ : Shape).Idx → EReal) (b b' : (⟨2, ![1, 64]⟩ : Shape).Idx → EReal)
    (W : (⟨2, ![64, 40]⟩ : Shape).Idx → EReal) (h : ∀ k : Fin 64, b (ix2 (0 : Fin 1) k) = b' (ix2 (0 : Fin 1) k)) :
    dense2 A b W = dense2 A b' W := by
  funext i
  unfold dense2
  exact Finset.sum_congr rfl fun k _ => by rw [h k]

theorem epilogue_congr_bias (A : (⟨2, ![100000, 40]⟩ : Shape).Idx → EReal) (b b' : (⟨2, ![1, 40]⟩ : Shape).Idx → EReal)
    (h : ∀ k : Fin 40, b (ix2 (0 : Fin 1) k) = b' (ix2 (0 : Fin 1) k)) : epilogue A b = epilogue A b' := by
  funext i
  unfold epilogue
  have e : (fun k : Fin 40 => A (ix2 (row i) k) + b (ix2 (0 : Fin 1) k)) = fun k : Fin 40 => A (ix2 (row i) k) + b' (ix2 (0 : Fin 1) k) :=
    funext fun k => by rw [h k]
  rw [e]

/-- A vector reshaped to one row and the same vector broadcast to one row hold the same entries (64 columns). -/
theorem row64 (x : (⟨1, ![64]⟩ : Shape).Idx → EReal) (k : Fin 64) :
    shapeCast S1x64 x shapeCasts_S64_S1x64 (ix2 (0 : Fin 1) k) = Cert.ReferenceIdeal.ReadP.val_main_v46 (F := Ideal) x (ix2 (0 : Fin 1) k) := by
  have e : Cert.ReferenceIdeal.ReadP.idx_main_v46 (ix2 (0 : Fin 1) k) = ix1 k := funext fun a => Fin.ext (by match a with | ⟨0, _⟩ => rfl)
  rw [Cert.ReferenceIdeal.ReadP.val_main_v46_apply, e]
  exact shapeCast_a_1a_apply x shapeCasts_S64_S1x64 (0 : Fin 1) k

/-- The same with 40 columns. -/
theorem row40 (x : (⟨1, ![40]⟩ : Shape).Idx → EReal) (k : Fin 40) :
    shapeCast S1x40 x shapeCasts_S40_S1x40 (ix2 (0 : Fin 1) k) = Cert.ReferenceIdeal.ReadP.val_main_v64 (F := Ideal) x (ix2 (0 : Fin 1) k) := by
  have e : Cert.ReferenceIdeal.ReadP.idx_main_v64 (ix2 (0 : Fin 1) k) = ix1 k := funext fun a => Fin.ext (by match a with | ⟨0, _⟩ => rfl)
  rw [Cert.ReferenceIdeal.ReadP.val_main_v64_apply, e]
  exact shapeCast_a_1a_apply x shapeCasts_S40_S1x40 (0 : Fin 1) k

/-! ## The boundaries, read back to the launch memory -/

variable (m : (ℓ : Loc nD τ sig) → Buf (Elt Ideal) ℓ) (ρ : Dev nD → PrngReg) (c : Dev nD)

/-! ### Entering the first launch -/

theorem w3_v3 : W3 m ρ c (Proc.devRef .tc main_v3) = (Cert.ReferenceIdeal.ReadP.val_main_v3 (F := Ideal) (m ((c.tc : Thread nD τ).loc main_arg1))) := all_v3 (W0 m ρ c)
theorem w3_v6 : W3 m ρ c (Proc.devRef .tc main_v6) = (Cert.ReferenceIdeal.ReadP.val_main_v6 (F := Ideal) (m ((c.tc : Thread nD τ).loc main_arg1))) := all_v6 (W0 m ρ c)
theorem w3_v31 : W3 m ρ c (Proc.devRef .tc main_v31) = (Cert.ReferenceIdeal.ReadP.val_main_v31 (F := Ideal) (m ((c.tc : Thread nD τ).loc main_arg1)) (m ((c.tc : Thread nD τ).loc main_arg2))) := all_v31 (W0 m ρ c)
theorem w3_arg0 : W3 m ρ c (Proc.devRef .tc main_arg0) = (m ((c.tc : Thread nD τ).loc main_arg0)) := all_arg0 (W0 m ρ c)
theorem w3_arg3 : W3 m ρ c (Proc.devRef .tc main_arg3) = (m ((c.tc : Thread nD τ).loc main_arg3)) := all_arg3 (W0 m ρ c)
theorem w3_arg4 : W3 m ρ c (Proc.devRef .tc main_arg4) = (m ((c.tc : Thread nD τ).loc main_arg4)) := all_arg4 (W0 m ρ c)
theorem w3_arg5 : W3 m ρ c (Proc.devRef .tc main_arg5) = (m ((c.tc : Thread nD τ).loc main_arg5)) := all_arg5 (W0 m ρ c)
theorem w3_arg6 : W3 m ρ c (Proc.devRef .tc main_arg6) = (m ((c.tc : Thread nD τ).loc main_arg6)) := all_arg6 (W0 m ρ c)

/-! ### Leaving the first launch -/

theorem w4_v32 : W4 m ρ c (Proc.devRef .tc main_v32) = (dense1 (m ((c.tc : Thread nD τ).loc main_arg0)) (m ((c.tc : Thread nD τ).loc main_arg3))) := by
  refine (W4_arr m ρ c 2).trans ((Cert.KernelIdeal.Layer1.final (V3 m ρ) c).trans ?_)
  show dense1 (W3 m ρ c (Proc.devRef .tc main_arg0)) (W3 m ρ c (Proc.devRef .tc main_arg3)) = _
  rw [w3_arg0, w3_arg3]
theorem w4_v3 : W4 m ρ c (Proc.devRef .tc main_v3) = (Cert.ReferenceIdeal.ReadP.val_main_v3 (F := Ideal) (m ((c.tc : Thread nD τ).loc main_arg1))) := (W4_of_ne m ρ c main_v3 (by decide)).trans (w3_v3 m ρ c)
theorem w4_v6 : W4 m ρ c (Proc.devRef .tc main_v6) = (Cert.ReferenceIdeal.ReadP.val_main_v6 (F := Ideal) (m ((c.tc : Thread nD τ).loc main_arg1))) := (W4_of_ne m ρ c main_v6 (by decide)).trans (w3_v6 m ρ c)
theorem w4_v31 : W4 m ρ c (Proc.devRef .tc main_v31) = (Cert.ReferenceIdeal.ReadP.val_main_v31 (F := Ideal) (m ((c.tc : Thread nD τ).loc main_arg1)) (m ((c.tc : Thread nD τ).loc main_arg2))) := (W4_of_ne m ρ c main_v31 (by decide)).trans (w3_v31 m ρ c)
theorem w4_arg4 : W4 m ρ c (Proc.devRef .tc main_arg4) = (m ((c.tc : Thread nD τ).loc main_arg4)) := (W4_of_ne m ρ c main_arg4 (by decide)).trans (w3_arg4 m ρ c)
theorem w4_arg5 : W4 m ρ c (Proc.devRef .tc main_arg5) = (m ((c.tc : Thread nD τ).loc main_arg5)) := (W4_of_ne m ρ c main_arg5 (by decide)).trans (w3_arg5 m ρ c)
theorem w4_arg6 : W4 m ρ c (Proc.devRef .tc main_arg6) = (m ((c.tc : Thread nD τ).loc main_arg6)) := (W4_of_ne m ρ c main_arg6 (by decide)).trans (w3_arg6 m ρ c)

/-! ### Entering the second launch -/

theorem w5_v45 : W5 m ρ c (Proc.devRef .tc main_v45) = (Cert.ReferenceIdeal.Stages.agg64 (F := Ideal) (dense1 (m ((c.tc : Thread nD τ).loc main_arg0)) (m ((c.tc : Thread nD τ).loc main_arg3))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) := by
  refine (after1_v45 (W4 m ρ c)).trans ?_
  rw [w4_v32, w4_v3, w4_v6, w4_v31]
theorem w5_v46 : W5 m ρ c (Proc.devRef .tc main_v46) = (shapeCast S1x64 (m ((c.tc : Thread nD τ).loc main_arg4)) shapeCasts_S64_S1x64) := by
  refine (after1_v46 (W4 m ρ c)).trans ?_
  rw [w4_arg4]
theorem w5_arg5 : W5 m ρ c (Proc.devRef .tc main_arg5) = (m ((c.tc : Thread nD τ).loc main_arg5)) := (after1_arg5 (W4 m ρ c)).trans (w4_arg5 m ρ c)
theorem w5_arg6 : W5 m ρ c (Proc.devRef .tc main_arg6) = (m ((c.tc : Thread nD τ).loc main_arg6)) := (after1_arg6 (W4 m ρ c)).trans (w4_arg6 m ρ c)
theorem w5_v3 : W5 m ρ c (Proc.devRef .tc main_v3) = (Cert.ReferenceIdeal.ReadP.val_main_v3 (F := Ideal) (m ((c.tc : Thread nD τ).loc main_arg1))) := (after1_v3 (W4 m ρ c)).trans (w4_v3 m ρ c)
theorem w5_v6 : W5 m ρ c (Proc.devRef .tc main_v6) = (Cert.ReferenceIdeal.ReadP.val_main_v6 (F := Ideal) (m ((c.tc : Thread nD τ).loc main_arg1))) := (after1_v6 (W4 m ρ c)).trans (w4_v6 m ρ c)
theorem w5_v31 : W5 m ρ c (Proc.devRef .tc main_v31) = (Cert.ReferenceIdeal.ReadP.val_main_v31 (F := Ideal) (m ((c.tc : Thread nD τ).loc main_arg1)) (m ((c.tc : Thread nD τ).loc main_arg2))) := (after1_v31 (W4 m ρ c)).trans (w4_v31 m ρ c)

/-! ### Leaving the second launch -/

theorem w6_v47 : W6 m ρ c (Proc.devRef .tc main_v47) = (dense2 (Cert.ReferenceIdeal.Stages.agg64 (F := Ideal) (dense1 (m ((c.tc : Thread nD τ).loc main_arg0)) (m ((c.tc : Thread nD τ).loc main_arg3))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) (shapeCast S1x64 (m ((c.tc : Thread nD τ).loc main_arg4)) shapeCasts_S64_S1x64) (m ((c.tc : Thread nD τ).loc main_arg5))) := by
  refine (W6_arr m ρ c 3).trans ((Cert.KernelIdeal.Layer2.final (V5 m ρ) c).trans ?_)
  show dense2 (W5 m ρ c (Proc.devRef .tc main_v45)) (W5 m ρ c (Proc.devRef .tc main_v46)) (W5 m ρ c (Proc.devRef .tc main_arg5)) = _
  rw [w5_v45, w5_v46, w5_arg5]
theorem w6_v3 : W6 m ρ c (Proc.devRef .tc main_v3) = (Cert.ReferenceIdeal.ReadP.val_main_v3 (F := Ideal) (m ((c.tc : Thread nD τ).loc main_arg1))) := (W6_of_ne m ρ c main_v3 (by decide)).trans (w5_v3 m ρ c)
theorem w6_v6 : W6 m ρ c (Proc.devRef .tc main_v6) = (Cert.ReferenceIdeal.ReadP.val_main_v6 (F := Ideal) (m ((c.tc : Thread nD τ).loc main_arg1))) := (W6_of_ne m ρ c main_v6 (by decide)).trans (w5_v6 m ρ c)
theorem w6_v31 : W6 m ρ c (Proc.devRef .tc main_v31) = (Cert.ReferenceIdeal.ReadP.val_main_v31 (F := Ideal) (m ((c.tc : Thread nD τ).loc main_arg1)) (m ((c.tc : Thread nD τ).loc main_arg2))) := (W6_of_ne m ρ c main_v31 (by decide)).trans (w5_v31 m ρ c)
theorem w6_arg6 : W6 m ρ c (Proc.devRef .tc main_arg6) = (m ((c.tc : Thread nD τ).loc main_arg6)) := (W6_of_ne m ρ c main_arg6 (by decide)).trans (w5_arg6 m ρ c)

/-! ### Entering the third launch -/

theorem w7_v60 : W7 m ρ c (Proc.devRef .tc main_v60) = (Cert.ReferenceIdeal.Stages.agg40 (F := Ideal) (dense2 (Cert.ReferenceIdeal.Stages.agg64 (F := Ideal) (dense1 (m ((c.tc : Thread nD τ).loc main_arg0)) (m ((c.tc : Thread nD τ).loc main_arg3))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) (shapeCast S1x64 (m ((c.tc : Thread nD τ).loc main_arg4)) shapeCasts_S64_S1x64) (m ((c.tc : Thread nD τ).loc main_arg5))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) := by
  refine (after2_v60 (W6 m ρ c)).trans ?_
  rw [w6_v47, w6_v3, w6_v6, w6_v31]
theorem w7_v61 : W7 m ρ c (Proc.devRef .tc main_v61) = (shapeCast S1x40 (m ((c.tc : Thread nD τ).loc main_arg6)) shapeCasts_S40_S1x40) := by
  refine (after2_v61 (W6 m ρ c)).trans ?_
  rw [w6_arg6]

/-! ### The result -/

/-- The result buffer after the run, as the specification's stages of the seven arguments. -/
theorem w8_v62 : W8 m ρ c (Proc.devRef .tc main_v62) = epilogue (Cert.ReferenceIdeal.Stages.agg40 (F := Ideal) (dense2 (Cert.ReferenceIdeal.Stages.agg64 (F := Ideal) (dense1 (m ((c.tc : Thread nD τ).loc main_arg0)) (m ((c.tc : Thread nD τ).loc main_arg3))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) (shapeCast S1x64 (m ((c.tc : Thread nD τ).loc main_arg4)) shapeCasts_S64_S1x64) (m ((c.tc : Thread nD τ).loc main_arg5))) (Cert.ReferenceIdeal.ReadP.val_main_v3 (F := Ideal) (m ((c.tc : Thread nD τ).loc main_arg1))) (Cert.ReferenceIdeal.ReadP.val_main_v6 (F := Ideal) (m ((c.tc : Thread nD τ).loc main_arg1))) (Cert.ReferenceIdeal.ReadP.val_main_v31 (F := Ideal) (m ((c.tc : Thread nD τ).loc main_arg1)) (m ((c.tc : Thread nD τ).loc main_arg2)))) (shapeCast S1x40 (m ((c.tc : Thread nD τ).loc main_arg6)) shapeCasts_S40_S1x40) := by
  refine (W8_arr m ρ c 2).trans ((Cert.KernelIdeal.Epilogue.final (V7 m ρ) c).trans ?_)
  show epilogue (W7 m ρ c (Proc.devRef .tc main_v60)) (W7 m ρ c (Proc.devRef .tc main_v61)) = _
  rw [w7_v60, w7_v61]

/-- The result buffer after the run is the reference's last stage of the same seven arrays. -/
theorem result_eq : W8 m ρ c (Proc.devRef .tc main_v62)
    = Cert.ReferenceIdeal.ReadP.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [w8_v62, Cert.ReferenceIdeal.Stages.v67_eq, Cert.ReferenceIdeal.Stages.v63_eq, Cert.ReferenceIdeal.Stages.v50_eq, Cert.ReferenceIdeal.Stages.v45_eq, Cert.ReferenceIdeal.Stages.v32_eq]
  rw [dense2_congr_bias _ _ _ _ (row64 (m ((c.tc : Thread nD τ).loc main_arg4))), epilogue_congr_bias _ _ _ (row40 (m ((c.tc : Thread nD τ).loc main_arg6)))]

end Cert.KernelIdeal.Value

end
-- ==== Proof.RefDefs.lean ====
/-
  The reference program's intermediate stages, each as a function of the few values it reads: the weighted in-degree,
  its kept inverse square root, the two halves of the edge norm, the second dense layer, the biased logits, the logits
  shifted by their row maximum, and the shifted logits minus the logarithm of their row's sum of exponentials.  Each of
  the reference's stages, as a function of the program's arguments, is one of these applied to earlier stages.
-/
import proofs.«150376_j2448131359492_1_alg».proof.Proof.RefOpsP
import proofs.«150376_j2448131359492_1_alg».proof.Proof.RefStages
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.ReadP Cert.ReferenceIdeal.Stages
open Idealize.ShloMosaic Idealize.ShloMosaic.TcCoe Idealize.SL.Sem Idealize.ShloMosaic.StableHlo

/-- A window of the operation list as a literal list. -/
macro "open_window" : tactic =>
  `(tactic| simp only [ops, List.drop_succ_cons, List.drop_zero, List.take_succ_cons, List.take_zero])

/-- The fold over the first m + n operations is the fold over the next n from the fold over the first m. -/
theorem split (m n : Nat) (W : Valuation τ sig (Elt Ideal)) (b : DevRef τ sig) :
    after ((ops (F := Ideal)).take (m + n)) W b = after (((ops (F := Ideal)).drop m).take n) (after ((ops (F := Ideal)).take m) W) b := by
  rw [List.take_add, StableHlo.after_append]

/-! ## The stages as functions of what they read -/

/-- The weighted in-degree: the weights summed into the destinations. -/
def degree (d : IVec S1700000 32) (w : FVec Ideal S1700000 .f32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 d) w

/-- The inverse square root of the degree where it is positive, zero elsewhere. -/
def kept (g : FVec Ideal S100000 .f32) : FVec Ideal S100000 .f32 :=
  select (cmpf .ogt g (broadcastInDim S100000 ![] bcast_S_S100000 (constant (F := Ideal) S_ .f32 0x00000000#32)))
    (Host.rsqrt g) (broadcastInDim S100000 ![] bcast_S_S100000 (id (constant (F := Ideal) S_ .f32 0x00000000#32)))

/-- The kept value at each edge's source times the edge's weight. -/
def halfNorm (r : FVec Ideal S100000 .f32) (s : IVec S1700000 32) (w : FVec Ideal S1700000 .f32) : FVec Ideal S1700000 .f32 :=
  mulf (Host.gather gather_S100000_S1700000x1_S1700000_n_0_n_n_0_1_1 r (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) w

/-- That times the kept value at each edge's destination: the edge norm. -/
def fullNorm (hn : FVec Ideal S1700000 .f32) (r : FVec Ideal S100000 .f32) (d : IVec S1700000 32) : FVec Ideal S1700000 .f32 :=
  mulf hn (Host.gather gather_S100000_S1700000x1_S1700000_n_0_n_n_0_1_1 r (broadcastInDim S1700000x1 ![0] bcast_S1700000_S1700000x1_0 (select (cmpi .slt d (broadcastInDim S1700000 ![] bcast_S_S1700000 (constantI S_ 32 0#32))) (addi d (broadcastInDim S1700000 ![] bcast_S_S1700000 (constantI S_ 32 100000#32))) d)))

/-- The bias, the rectifier and the second product, of the aggregated features, the bias vector and the weights. -/
def layer2 (A : FVec Ideal S100000x64 .f32) (b : FVec Ideal S64 .f32) (W : FVec Ideal S64x40 .f32) : FVec Ideal S100000x40 .f32 :=
  Host.dotGeneral dot_S100000x64_S64x40_S100000x40_1_0_0_1_n_n none
    (maximumf (addf A (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))) W

/-- The second bias added to every row. -/
def biased (A : FVec Ideal S100000x40 .f32) (b : FVec Ideal S40 .f32) : FVec Ideal S100000x40 .f32 :=
  addf A (broadcastInDim S100000x40 ![0, 1] bcast_S1x40_S100000x40_0_1 (broadcastInDim S1x40 ![1] bcast_S40_S1x40_1 b))

/-- The logits shifted by their row's largest entry. -/
def shifted (Z : FVec Ideal S100000x40 .f32) : FVec Ideal S100000x40 .f32 :=
  subf Z (broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce FloatOps.maximumf Z (constant (F := Ideal) S_ .f32 0xFF800000#32) reducesTo_S100000x40_S100000_d1 h_S_))))

/-- The shifted logits minus the logarithm of their row's sum of exponentials. -/
def lessLogSum (Y : FVec Ideal S100000x40 .f32) : FVec Ideal S100000x40 .f32 :=
  subf Y (broadcastInDim S100000x40 ![0, 1] bcast_S100000x1_S100000x40_0_1 (Host.log (broadcastInDim S100000x1 ![0] bcast_S100000_S100000x1_0
    (Host.reduceAdd (Host.exp Y) (constant (F := Ideal) S_ .f32 0x00000000#32) reducesTo_S100000x40_S100000_d1 h_S_))))

section Stages
variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal))
theorem v11_stage : val_main_v11 (F := Ideal) x1 x2 = degree (val_main_v6 (F := Ideal) x1) (val_main_v8 (F := Ideal) x2) := rfl
theorem v15_stage : val_main_v15 (F := Ideal) x1 x2 = kept (val_main_v11 (F := Ideal) x1 x2) := rfl
theorem v23_stage : val_main_v23 (F := Ideal) x1 x2 = halfNorm (val_main_v15 (F := Ideal) x1 x2) (val_main_v3 (F := Ideal) x1) (val_main_v8 (F := Ideal) x2) := rfl
theorem v31_stage : val_main_v31 (F := Ideal) x1 x2 = fullNorm (val_main_v23 (F := Ideal) x1 x2) (val_main_v15 (F := Ideal) x1 x2) (val_main_v6 (F := Ideal) x1) := rfl
theorem v50_stage : val_main_v50 (F := Ideal) x0 x1 x2 x3 x4 x5 = layer2 (val_main_v45 (F := Ideal) x0 x1 x2 x3) x4 x5 := rfl
theorem v66_stage : val_main_v66 (F := Ideal) x0 x1 x2 x3 x4 x5 x6 = biased (val_main_v63 (F := Ideal) x0 x1 x2 x3 x4 x5) x6 := rfl
theorem v5_stage : val_main_call2_v5 (F := Ideal) x0 x1 x2 x3 x4 x5 x6 = shifted (val_main_v66 (F := Ideal) x0 x1 x2 x3 x4 x5 x6) := rfl
theorem v67_stage : val_main_v67 (F := Ideal) x0 x1 x2 x3 x4 x5 x6 = lessLogSum (val_main_call2_v5 (F := Ideal) x0 x1 x2 x3 x4 x5 x6) := rfl
end Stages

end Cert.ReferenceIdeal.RefRun

end
-- ==== Proof.RefWinA.lean ====
/-
  The reference's first five windows of host operations (the sources, destinations and weights; the weighted
  in-degree; its kept inverse square root; the two halves of the edge norm), each read for an arbitrary starting
  valuation as a function of the few buffers it reads; a buffer a window does not write keeps its contents.
-/
import proofs.«150376_j2448131359492_1_alg».proof.Proof.RefDefs

set_option maxRecDepth 16384

noncomputable section

namespace Cert.ReferenceIdeal.RefRun

open Cert.ReferenceIdeal Cert.ReferenceIdeal.Gen Cert.ReferenceIdeal.ValueP Cert.ReferenceIdeal.ReadP Cert.ReferenceIdeal.Stages
open Idealize.ShloMosaic Idealize.ShloMosaic.TcCoe Idealize.SL.Sem Idealize.ShloMosaic.StableHlo

/-! ## The windows -/

section Windows
variable (U : Valuation τ sig (Elt Ideal))

theorem win0_v3 : after (((ops (F := Ideal)).drop 0).take 10) U (Proc.devRef .tc main_v3)
    = val_main_v3 (F := Ideal) (U (Proc.devRef .tc main_arg1)) := by
  open_window
  after_results
  rfl
theorem win0_v6 : after (((ops (F := Ideal)).drop 0).take 10) U (Proc.devRef .tc main_v6)
    = val_main_v6 (F := Ideal) (U (Proc.devRef .tc main_arg1)) := by
  open_window
  after_results
  rfl
theorem win0_v8 : after (((ops (F := Ideal)).drop 0).take 10) U (Proc.devRef .tc main_v8)
    = val_main_v8 (F := Ideal) (U (Proc.devRef .tc main_arg2)) := by
  open_window
  after_results
  rfl

theorem win1_v11 : after (((ops (F := Ideal)).drop 10).take 4) U (Proc.devRef .tc main_v11)
    = degree (U (Proc.devRef .tc main_v6)) (U (Proc.devRef .tc main_v8)) := by
  open_window
  after_results
  rfl
theorem win1_v3 : after (((ops (F := Ideal)).drop 10).take 4) U (Proc.devRef .tc main_v3) = U (Proc.devRef .tc main_v3) := by
  open_window
  after_results
theorem win1_v6 : after (((ops (F := Ideal)).drop 10).take 4) U (Proc.devRef .tc main_v6) = U (Proc.devRef .tc main_v6) := by
  open_window
  after_results
theorem win1_v8 : after (((ops (F := Ideal)).drop 10).take 4) U (Proc.devRef .tc main_v8) = U (Proc.devRef .tc main_v8) := by
  open_window
  after_results

theorem win2_v15 : after (((ops (F := Ideal)).drop 14).take 8) U (Proc.devRef .tc main_v15)
    = kept (U (Proc.devRef .tc main_v11)) := by
  open_window
  after_results
  simp only [TRef.ofBuf, TRef.toBuf, cast_cast, cast_eq]
  rfl
theorem win2_v3 : after (((ops (F := Ideal)).drop 14).take 8) U (Proc.devRef .tc main_v3) = U (Proc.devRef .tc main_v3) := by
  open_window
  after_results
theorem win2_v6 : after (((ops (F := Ideal)).drop 14).take 8) U (Proc.devRef .tc main_v6) = U (Proc.devRef .tc main_v6) := by
  open_window
  after_results
theorem win2_v8 : after (((ops (F := Ideal)).drop 14).take 8) U (Proc.devRef .tc main_v8) = U (Proc.devRef .tc main_v8) := by
  open_window
  after_results

set_option maxHeartbeats 1000000 in
theorem win3_v23 : after (((ops (F := Ideal)).drop 22).take 10) U (Proc.devRef .tc main_v23)
    = halfNorm (U (Proc.devRef .tc main_v15)) (U (Proc.devRef .tc main_v3)) (U (Proc.devRef .tc main_v8)) := by
  open_window
  after_results
  rfl
theorem win3_v3 : after (((ops (F := Ideal)).drop 22).take 10) U (Proc.devRef .tc main_v3) = U (Proc.devRef .tc main_v3) := by
  open_window
  after_results
theorem win3_v6 : after (((ops (F := Ideal)).drop 22).take 10) U (Proc.devRef .tc main_v6) = U (Proc.devRef .tc main_v6) := by
  open_window
  after_results
theorem win3_v15 : after (((ops (F := Ideal)).drop 22).take 10) U (Proc.devRef .tc main_v15) = U (Proc.devRef .tc main_v15) := by
  open_window
  after_results

set_option maxHeartbeats 1000000 in
theorem win4_v31 : after (((ops (F := Ideal)).drop 32).take 10) U (Proc.devRef .tc main_v31)
    = fullNorm (U (Proc.devRef .tc main_v23)) (U (Proc.devRef .tc main_v15)) (U (Proc.devRef .tc main_v6)) := by
  open_window
  after_results
  rfl
theorem win4_v3 : after (((ops (F := Ideal)).drop 32).take 10) U (Proc.devRef .tc main_v3) = U (Proc.devRef .tc main_v3) := by
  open_window
  after_results
theorem win4_v6 : after (((ops (F := Ideal)).drop 32).take 10) U (Proc.devRef .tc main_v6) = U (Proc.devRef .tc main_v6) := by
  open_window
  after_results

end Windows

end Cert.ReferenceIdeal.RefRun

end
-- ==== Proof.RefWinB.lean ====
/-
  The reference's last five windows of host operations (the first product and its aggregation; the bias, the
  rectifier and the second product; the second aggregation and its bias; the logits shifted by their row maximum; the
  logarithm of the row sum subtracted), each read for an arbitrary starting valuation as a function of the few buffers
  it reads; a buffer a window does not write keeps its contents.
-/
import proofs.«150376_j2448131359492_1_alg».proof.Proof.RefDefs

set_option maxRecDepth 16384

noncomputable section

namespace Cert.ReferenceIdeal.RefRun

open Cert.ReferenceIdeal Cert.ReferenceIdeal.Gen Cert.ReferenceIdeal.ValueP Cert.ReferenceIdeal.ReadP Cert.ReferenceIdeal.Stages
open Idealize.ShloMosaic Idealize.ShloMosaic.TcCoe Idealize.SL.Sem Idealize.ShloMosaic.StableHlo

/-! ## The windows -/

section Windows
variable (U : Valuation τ sig (Elt Ideal))

set_option maxHeartbeats 2000000 in
theorem win5_v45 : after (((ops (F := Ideal)).drop 42).take 17) U (Proc.devRef .tc main_v45)
    = agg64 (F := Ideal) (val_main_v32 (F := Ideal) (U (Proc.devRef .tc main_arg0)) (U (Proc.devRef .tc main_arg3))) (U (Proc.devRef .tc main_v3)) (U (Proc.devRef .tc main_v6)) (U (Proc.devRef .tc main_v31)) := by
  open_window
  after_results
  rfl
theorem win5_v3 : after (((ops (F := Ideal)).drop 42).take 17) U (Proc.devRef .tc main_v3) = U (Proc.devRef .tc main_v3) := by
  open_window
  after_results
theorem win5_v6 : after (((ops (F := Ideal)).drop 42).take 17) U (Proc.devRef .tc main_v6) = U (Proc.devRef .tc main_v6) := by
  open_window
  after_results
theorem win5_v31 : after (((ops (F := Ideal)).drop 42).take 17) U (Proc.devRef .tc main_v31) = U (Proc.devRef .tc main_v31) := by
  open_window
  after_results

theorem win6_v50 : after (((ops (F := Ideal)).drop 59).take 7) U (Proc.devRef .tc main_v50)
    = layer2 (U (Proc.devRef .tc main_v45)) (U (Proc.devRef .tc main_arg4)) (U (Proc.devRef .tc main_arg5)) := by
  open_window
  after_results
  simp only [TRef.ofBuf, TRef.toBuf, cast_cast, cast_eq]
  rfl
theorem win6_v3 : after (((ops (F := Ideal)).drop 59).take 7) U (Proc.devRef .tc main_v3) = U (Proc.devRef .tc main_v3) := by
  open_window
  after_results
theorem win6_v6 : after (((ops (F := Ideal)).drop 59).take 7) U (Proc.devRef .tc main_v6) = U (Proc.devRef .tc main_v6) := by
  open_window
  after_results
theorem win6_v31 : after (((ops (F := Ideal)).drop 59).take 7) U (Proc.devRef .tc main_v31) = U (Proc.devRef .tc main_v31) := by
  open_window
  after_results

set_option maxHeartbeats 2000000 in
theorem win7_v66 : after (((ops (F := Ideal)).drop 66).take 19) U (Proc.devRef .tc main_v66)
    = biased (agg40 (F := Ideal) (U (Proc.devRef .tc main_v50)) (U (Proc.devRef .tc main_v3)) (U (Proc.devRef .tc main_v6)) (U (Proc.devRef .tc main_v31))) (U (Proc.devRef .tc main_arg6)) := by
  open_window
  after_results
  rfl

/-- Contents carried to a buffer's type and back are the contents. -/
theorem ofBuf_toBuf {T : BufTy} (r : TRef sig T) (x : T.Contents (Elt Ideal)) : r.ofBuf (r.toBuf x) = x := by
  obtain ⟨ref, ty_eq, _, _⟩ := r
  subst ty_eq
  rfl

/-- The biased logits' buffer holds values of the logits' own type. -/
theorem ofBuf_v66 (y : (Proc.devRef (τ := τ) .tc main_v66).ty.Contents (Elt Ideal)) :
    (TRef.of (T := ⟨S100000x40, .f32⟩) main_v66).ofBuf y = y := rfl

/-- So does the shifted logits' buffer. -/
theorem toBuf_v5 (x : (⟨S100000x40, .f32⟩ : BufTy).Contents (Elt Ideal)) :
    (TRef.of (T := ⟨S100000x40, .f32⟩) main_call2_v5).toBuf x = x := rfl

set_option maxHeartbeats 1000000 in
theorem win8_v5 : after (((ops (F := Ideal)).drop 85).take 8) U (Proc.devRef .tc main_call2_v5)
    = shifted (U (Proc.devRef .tc main_v66)) := by
  open_window
  after_results
  simp only [ofBuf_toBuf]
  rw [ofBuf_v66, toBuf_v5]
  unfold shifted
  rfl

set_option maxHeartbeats 1000000 in
theorem win9_v67 : after (((ops (F := Ideal)).drop 93).take 7) U (Proc.devRef .tc main_v67)
    = lessLogSum (U (Proc.devRef .tc main_call2_v5)) := by
  open_window
  after_results
  simp only [TRef.ofBuf, TRef.toBuf, cast_cast, cast_eq]
  rfl

end Windows

end Cert.ReferenceIdeal.RefRun

end
-- ==== Proof.RefArgs.lean ====
/-
  No operation of the reference writes an argument buffer, so after any prefix of the operations each argument buffer
  holds what it held at the start.
-/
import proofs.«150376_j2448131359492_1_alg».proof.Proof.RefOpsP
import Idealize.ShloMosaic.PureOps.Ideal
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

section Args
variable (W : Valuation τ sig (Elt Ideal))
set_option maxHeartbeats 2000000 in
theorem notWritten0 : ∀ op ∈ ops (F := Ideal), (Proc.devRef .tc main_arg0) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg0 (n : Nat) : after ((ops (F := Ideal)).take n) W (Proc.devRef .tc main_arg0) = W (Proc.devRef .tc main_arg0) :=
  after_of_forall_not_mem _ _ fun op h => notWritten0 op (List.mem_of_mem_take h)
set_option maxHeartbeats 2000000 in
theorem notWritten1 : ∀ op ∈ ops (F := Ideal), (Proc.devRef .tc main_arg1) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg1 (n : Nat) : after ((ops (F := Ideal)).take n) W (Proc.devRef .tc main_arg1) = W (Proc.devRef .tc main_arg1) :=
  after_of_forall_not_mem _ _ fun op h => notWritten1 op (List.mem_of_mem_take h)
set_option maxHeartbeats 2000000 in
theorem notWritten2 : ∀ op ∈ ops (F := Ideal), (Proc.devRef .tc main_arg2) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg2 (n : Nat) : after ((ops (F := Ideal)).take n) W (Proc.devRef .tc main_arg2) = W (Proc.devRef .tc main_arg2) :=
  after_of_forall_not_mem _ _ fun op h => notWritten2 op (List.mem_of_mem_take h)
set_option maxHeartbeats 2000000 in
theorem notWritten3 : ∀ op ∈ ops (F := Ideal), (Proc.devRef .tc main_arg3) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg3 (n : Nat) : after ((ops (F := Ideal)).take n) W (Proc.devRef .tc main_arg3) = W (Proc.devRef .tc main_arg3) :=
  after_of_forall_not_mem _ _ fun op h => notWritten3 op (List.mem_of_mem_take h)
set_option maxHeartbeats 2000000 in
theorem notWritten4 : ∀ op ∈ ops (F := Ideal), (Proc.devRef .tc main_arg4) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg4 (n : Nat) : after ((ops (F := Ideal)).take n) W (Proc.devRef .tc main_arg4) = W (Proc.devRef .tc main_arg4) :=
  after_of_forall_not_mem _ _ fun op h => notWritten4 op (List.mem_of_mem_take h)
set_option maxHeartbeats 2000000 in
theorem notWritten5 : ∀ op ∈ ops (F := Ideal), (Proc.devRef .tc main_arg5) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg5 (n : Nat) : after ((ops (F := Ideal)).take n) W (Proc.devRef .tc main_arg5) = W (Proc.devRef .tc main_arg5) :=
  after_of_forall_not_mem _ _ fun op h => notWritten5 op (List.mem_of_mem_take h)
set_option maxHeartbeats 2000000 in
theorem notWritten6 : ∀ op ∈ ops (F := Ideal), (Proc.devRef .tc main_arg6) ∉ op.writes :=
  List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem arg6 (n : Nat) : after ((ops (F := Ideal)).take n) W (Proc.devRef .tc main_arg6) = W (Proc.devRef .tc main_arg6) :=
  after_of_forall_not_mem _ _ fun op h => notWritten6 op (List.mem_of_mem_take h)
end Args

end Cert.ReferenceIdeal.RefRun

end
-- ==== Proof.RefRun.lean ====
/-
  The reference program's run, read back.

  The reference is a straight line of one hundred host operations, so every execution ends with each buffer at the
  fold of the operations' results over the launch contents.  The fold is read in ten consecutive windows, cut wherever a
  value is used more than once so that no window computes anything twice: the sources, destinations and weights; the
  weighted in-degree; its kept inverse square root; the two halves of the edge norm; the first product and its
  aggregation; the bias, the rectifier and the second product; the second aggregation and its bias; the logits shifted
  by their row maximum; the logarithm of the row sum subtracted.  Each window is read for an arbitrary starting
  valuation as a function of the few buffers it reads, and the windows are chained: what a later window reads is what
  the earlier ones left.  No operation writes an argument.
-/
import proofs.«150376_j2448131359492_1_alg».proof.Proof.RefDefs
import proofs.«150376_j2448131359492_1_alg».proof.Proof.RefWinA
import proofs.«150376_j2448131359492_1_alg».proof.Proof.RefWinB
import proofs.«150376_j2448131359492_1_alg».proof.Proof.RefArgs

set_option maxRecDepth 16384

noncomputable section

namespace Cert.ReferenceIdeal.RefRun

open Cert.ReferenceIdeal Cert.ReferenceIdeal.Gen Cert.ReferenceIdeal.ValueP Cert.ReferenceIdeal.ReadP Cert.ReferenceIdeal.Stages
open Idealize.ShloMosaic Idealize.ShloMosaic.TcCoe Idealize.SL.Sem Idealize.ShloMosaic.StableHlo

/-! ## The windows chained -/

section Chain
variable (W : Valuation τ sig (Elt Ideal))
theorem at1_v3 : after ((ops (F := Ideal)).take (10)) W (Proc.devRef .tc main_v3) = val_main_v3 (F := Ideal) (W (Proc.devRef .tc main_arg1)) := by
  have h := win0_v3 W
  simpa only [List.drop_zero] using h
theorem at1_v6 : after ((ops (F := Ideal)).take (10)) W (Proc.devRef .tc main_v6) = val_main_v6 (F := Ideal) (W (Proc.devRef .tc main_arg1)) := by
  have h := win0_v6 W
  simpa only [List.drop_zero] using h
theorem at1_v8 : after ((ops (F := Ideal)).take (10)) W (Proc.devRef .tc main_v8) = val_main_v8 (F := Ideal) (W (Proc.devRef .tc main_arg2)) := by
  have h := win0_v8 W
  simpa only [List.drop_zero] using h
theorem at2_v11 : after ((ops (F := Ideal)).take (10 + 4)) W (Proc.devRef .tc main_v11) = val_main_v11 (F := Ideal) (W (Proc.devRef .tc main_arg1)) (W (Proc.devRef .tc main_arg2)) := by
  rw [split, win1_v11, at1_v6, at1_v8]
  exact (v11_stage _ _).symm
theorem at2_v3 : after ((ops (F := Ideal)).take (10 + 4)) W (Proc.devRef .tc main_v3) = val_main_v3 (F := Ideal) (W (Proc.devRef .tc main_arg1)) := by
  rw [split, win1_v3, at1_v3]
theorem at2_v6 : after ((ops (F := Ideal)).take (10 + 4)) W (Proc.devRef .tc main_v6) = val_main_v6 (F := Ideal) (W (Proc.devRef .tc main_arg1)) := by
  rw [split, win1_v6, at1_v6]
theorem at2_v8 : after ((ops (F := Ideal)).take (10 + 4)) W (Proc.devRef .tc main_v8) = val_main_v8 (F := Ideal) (W (Proc.devRef .tc main_arg2)) := by
  rw [split, win1_v8, at1_v8]
theorem at3_v15 : after ((ops (F := Ideal)).take (10 + 4 + 8)) W (Proc.devRef .tc main_v15) = val_main_v15 (F := Ideal) (W (Proc.devRef .tc main_arg1)) (W (Proc.devRef .tc main_arg2)) := by
  rw [split, win2_v15, at2_v11]
  exact (v15_stage _ _).symm
theorem at3_v3 : after ((ops (F := Ideal)).take (10 + 4 + 8)) W (Proc.devRef .tc main_v3) = val_main_v3 (F := Ideal) (W (Proc.devRef .tc main_arg1)) := by
  rw [split, win2_v3, at2_v3]
theorem at3_v6 : after ((ops (F := Ideal)).take (10 + 4 + 8)) W (Proc.devRef .tc main_v6) = val_main_v6 (F := Ideal) (W (Proc.devRef .tc main_arg1)) := by
  rw [split, win2_v6, at2_v6]
theorem at3_v8 : after ((ops (F := Ideal)).take (10 + 4 + 8)) W (Proc.devRef .tc main_v8) = val_main_v8 (F := Ideal) (W (Proc.devRef .tc main_arg2)) := by
  rw [split, win2_v8, at2_v8]
theorem at4_v23 : after ((ops (F := Ideal)).take (10 + 4 + 8 + 10)) W (Proc.devRef .tc main_v23) = val_main_v23 (F := Ideal) (W (Proc.devRef .tc main_arg1)) (W (Proc.devRef .tc main_arg2)) := by
  rw [split, win3_v23, at3_v15, at3_v3, at3_v8]
  exact (v23_stage _ _).symm
theorem at4_v3 : after ((ops (F := Ideal)).take (10 + 4 + 8 + 10)) W (Proc.devRef .tc main_v3) = val_main_v3 (F := Ideal) (W (Proc.devRef .tc main_arg1)) := by
  rw [split, win3_v3, at3_v3]
theorem at4_v6 : after ((ops (F := Ideal)).take (10 + 4 + 8 + 10)) W (Proc.devRef .tc main_v6) = val_main_v6 (F := Ideal) (W (Proc.devRef .tc main_arg1)) := by
  rw [split, win3_v6, at3_v6]
theorem at4_v15 : after ((ops (F := Ideal)).take (10 + 4 + 8 + 10)) W (Proc.devRef .tc main_v15) = val_main_v15 (F := Ideal) (W (Proc.devRef .tc main_arg1)) (W (Proc.devRef .tc main_arg2)) := by
  rw [split, win3_v15, at3_v15]
theorem at5_v31 : after ((ops (F := Ideal)).take (10 + 4 + 8 + 10 + 10)) W (Proc.devRef .tc main_v31) = val_main_v31 (F := Ideal) (W (Proc.devRef .tc main_arg1)) (W (Proc.devRef .tc main_arg2)) := by
  rw [split, win4_v31, at4_v23, at4_v15, at4_v6]
  exact (v31_stage _ _).symm
theorem at5_v3 : after ((ops (F := Ideal)).take (10 + 4 + 8 + 10 + 10)) W (Proc.devRef .tc main_v3) = val_main_v3 (F := Ideal) (W (Proc.devRef .tc main_arg1)) := by
  rw [split, win4_v3, at4_v3]
theorem at5_v6 : after ((ops (F := Ideal)).take (10 + 4 + 8 + 10 + 10)) W (Proc.devRef .tc main_v6) = val_main_v6 (F := Ideal) (W (Proc.devRef .tc main_arg1)) := by
  rw [split, win4_v6, at4_v6]
theorem at6_v45 : after ((ops (F := Ideal)).take (10 + 4 + 8 + 10 + 10 + 17)) W (Proc.devRef .tc main_v45) = val_main_v45 (F := Ideal) (W (Proc.devRef .tc main_arg0)) (W (Proc.devRef .tc main_arg1)) (W (Proc.devRef .tc main_arg2)) (W (Proc.devRef .tc main_arg3)) := by
  rw [split, win5_v45, at5_v3, at5_v6, at5_v31, arg0, arg3]
  exact (v45_eq _ _ _ _).symm
theorem at6_v3 : after ((ops (F := Ideal)).take (10 + 4 + 8 + 10 + 10 + 17)) W (Proc.devRef .tc main_v3) = val_main_v3 (F := Ideal) (W (Proc.devRef .tc main_arg1)) := by
  rw [split, win5_v3, at5_v3]
theorem at6_v6 : after ((ops (F := Ideal)).take (10 + 4 + 8 + 10 + 10 + 17)) W (Proc.devRef .tc main_v6) = val_main_v6 (F := Ideal) (W (Proc.devRef .tc main_arg1)) := by
  rw [split, win5_v6, at5_v6]
theorem at6_v31 : after ((ops (F := Ideal)).take (10 + 4 + 8 + 10 + 10 + 17)) W (Proc.devRef .tc main_v31) = val_main_v31 (F := Ideal) (W (Proc.devRef .tc main_arg1)) (W (Proc.devRef .tc main_arg2)) := by
  rw [split, win5_v31, at5_v31]
theorem at7_v50 : after ((ops (F := Ideal)).take (10 + 4 + 8 + 10 + 10 + 17 + 7)) W (Proc.devRef .tc main_v50) = val_main_v50 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [split, win6_v50, at6_v45, arg4, arg5]
  exact (v50_stage _ _ _ _ _ _).symm
theorem at7_v3 : after ((ops (F := Ideal)).take (10 + 4 + 8 + 10 + 10 + 17 + 7)) W (Proc.devRef .tc main_v3) = val_main_v3 (F := Ideal) (W (Proc.devRef .tc main_arg1)) := by
  rw [split, win6_v3, at6_v3]
theorem at7_v6 : after ((ops (F := Ideal)).take (10 + 4 + 8 + 10 + 10 + 17 + 7)) W (Proc.devRef .tc main_v6) = val_main_v6 (F := Ideal) (W (Proc.devRef .tc main_arg1)) := by
  rw [split, win6_v6, at6_v6]
theorem at7_v31 : after ((ops (F := Ideal)).take (10 + 4 + 8 + 10 + 10 + 17 + 7)) W (Proc.devRef .tc main_v31) = val_main_v31 (F := Ideal) (W (Proc.devRef .tc main_arg1)) (W (Proc.devRef .tc main_arg2)) := by
  rw [split, win6_v31, at6_v31]
theorem at8_v66 : after ((ops (F := Ideal)).take (10 + 4 + 8 + 10 + 10 + 17 + 7 + 19)) W (Proc.devRef .tc main_v66) = val_main_v66 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [split, win7_v66, at7_v50, at7_v3, at7_v6, at7_v31, arg6]
  exact ((v66_stage _ _ _ _ _ _ _).trans (congrArg (fun A => biased A _) (v63_eq _ _ _ _ _ _))).symm
theorem at9_v5 : after ((ops (F := Ideal)).take (10 + 4 + 8 + 10 + 10 + 17 + 7 + 19 + 8)) W (Proc.devRef .tc main_call2_v5) = val_main_call2_v5 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [split, win8_v5, at8_v66]
  exact (v5_stage _ _ _ _ _ _ _).symm
theorem at10_v67 : after ((ops (F := Ideal)).take (10 + 4 + 8 + 10 + 10 + 17 + 7 + 19 + 8 + 7)) W (Proc.devRef .tc main_v67) = val_main_v67 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [split, win9_v67, at9_v5]
  exact (v67_stage _ _ _ _ _ _ _).symm

/-- The whole fold at the result buffer is the last stage's value as a function of the seven arguments. -/
theorem read_v67 : after (ops (F := Ideal)) W (Proc.devRef .tc main_v67) = val_main_v67 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  have h : (ops (F := Ideal)).take (10 + 4 + 8 + 10 + 10 + 17 + 7 + 19 + 8 + 7) = ops (F := Ideal) := List.take_of_length_le (by decide)
  rw [← h]
  exact at10_v67 W

end Chain

/-! ## The run -/

set_option maxHeartbeats 4000000 in
/-- Every weakly fair execution of the reference terminates with the result buffer at the last stage's value as a
    function of the seven argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (read_v67 (launchContents m c)),
      (h c main_arg0).trans (after_of_forall_not_mem _ _ (notWritten0)),
      (h c main_arg1).trans (after_of_forall_not_mem _ _ (notWritten1)),
      (h c main_arg2).trans (after_of_forall_not_mem _ _ (notWritten2)),
      (h c main_arg3).trans (after_of_forall_not_mem _ _ (notWritten3)),
      (h c main_arg4).trans (after_of_forall_not_mem _ _ (notWritten4)),
      (h c main_arg5).trans (after_of_forall_not_mem _ _ (notWritten5)),
      (h c main_arg6).trans (after_of_forall_not_mem _ _ (notWritten6))⟩)
    (run_seq scopedRefs_eq scopedSems_eq defs main (fun _ => ops) main_eq (fun _ => ops_sub) m ρ)

end Cert.ReferenceIdeal.RefRun

end
-- ==== Proof.lean ====
/-
  A two-layer graph convolution: a row-tiled kernel program against its plain reference, equal over the extended reals.

  Both programs compute, from node features x, an edge list, edge weights, two weight matrices and two biases:
  the symmetric edge norm (self loops added; the inverse square root of the weighted in-degree where it is positive);
  h1 = x · W1; a1 = the rows of h1 gathered along the edges' sources, scaled by the norm and summed into the edges'
  destinations; h2 = max (a1 + b1) 0 · W2; a2 = the same aggregation of h2; and the logarithm of the softmax of each row
  of a2 + b2.  The norm and the two aggregations are the same host operations in both programs and are compared as
  wholes.  The kernel program computes the three dense stages in three grid launches of ten row blocks each: a block
  product into a zero accumulator (rounding the operands to a narrower format is the identity on extended reals), the
  same after a bias row and a rectifier, and a row-wise logarithm of the softmax by lane reductions; each launch's
  output array is one whole-array function of its input arrays (`dense1`, `dense2`, `epilogue`), because every stored
  row depends only on the same rows of the inputs and the ten blocks tile the output.  The reference's matrix products,
  its rectifier and its logarithm of the softmax are the same three functions: a sum starting from zero is the sum, a
  maximum with -infinity changes nothing, and the bias reshaped or broadcast to one row has the same entries.  No law
  used needs the inputs to be finite, so the precondition is never opened.

  The three frames: the two kernel programs' are the generated ones; the reference's is its run with the result
  dropped.  The idealization changed no operation, so there is nothing to preserve.
-/
import proofs.«150376_j2448131359492_1_alg».proof.Defs
import proofs.«150376_j2448131359492_1_alg».proof.Proof.Gen.Kernel
import proofs.«150376_j2448131359492_1_alg».proof.Proof.Gen.Kernel.Skeleton
import proofs.«150376_j2448131359492_1_alg».proof.Proof.Gen.Kernel.Launch
import proofs.«150376_j2448131359492_1_alg».proof.Proof.Gen.Kernel.Points
import proofs.«150376_j2448131359492_1_alg».proof.Proof.Gen.Kernel.Frame
import proofs.«150376_j2448131359492_1_alg».proof.Proof.Gen.KernelIdeal
import proofs.«150376_j2448131359492_1_alg».proof.Proof.Gen.KernelIdeal.Skeleton
import proofs.«150376_j2448131359492_1_alg».proof.Proof.Gen.KernelIdeal.Launch
import proofs.«150376_j2448131359492_1_alg».proof.Proof.Gen.KernelIdeal.Points
import proofs.«150376_j2448131359492_1_alg».proof.Proof.Gen.KernelIdeal.Frame
import proofs.«150376_j2448131359492_1_alg».proof.Proof.Gen.ReferenceIdeal
import proofs.«150376_j2448131359492_1_alg».proof.Proof.Gen.Pre_finite_inputs
import proofs.«150376_j2448131359492_1_alg».proof.Proof.KernelRun
import proofs.«150376_j2448131359492_1_alg».proof.Proof.KernelValue
import proofs.«150376_j2448131359492_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories agreeing on the seven arguments both programs run and end with the same result array: the
    reference's last stage of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Value.result_eq m ρ c), (h c).2⟩)
      (Cert.KernelIdeal.RunValue.run m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
